-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S_ : Shape := ⟨0, ![]⟩
abbrev S4096000x4 : Shape := ⟨2, ![4096000, 4]⟩
abbrev S1 : Shape := ⟨1, ![1]⟩
abbrev S2 : Shape := ⟨1, ![2]⟩
abbrev S96000 : Shape := ⟨1, ![96000]⟩
abbrev S4096000x3 : Shape := ⟨2, ![4096000, 3]⟩
abbrev S4x4096000 : Shape := ⟨2, ![4, 4096000]⟩
abbrev S4x32000x128 : Shape := ⟨3, ![4, 32000, 128]⟩
abbrev S3x4096000 : Shape := ⟨2, ![3, 4096000]⟩
abbrev S3x32000x128 : Shape := ⟨3, ![3, 32000, 128]⟩
abbrev S9x32000x128 : Shape := ⟨3, ![9, 32000, 128]⟩
abbrev S4x1000x128 : Shape := ⟨3, ![4, 1000, 128]⟩
abbrev S3x1000x128 : Shape := ⟨3, ![3, 1000, 128]⟩
abbrev S9x1000x128 : Shape := ⟨3, ![9, 1000, 128]⟩
abbrev S1x1000x128 : Shape := ⟨3, ![1, 1000, 128]⟩
abbrev S1000x128 : Shape := ⟨2, ![1000, 128]⟩
abbrev S9x4096000 : Shape := ⟨2, ![9, 4096000]⟩
abbrev S4096000x9 : Shape := ⟨2, ![4096000, 9]⟩
abbrev S4000000x9 : Shape := ⟨2, ![4000000, 9]⟩
abbrev S4000000x3x3 : Shape := ⟨3, ![4000000, 3, 3]⟩

abbrev nBuf : Space → Nat
  | .hbm => 25
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S_, .i32⟩
  | .hbm, ⟨3, _⟩ => ⟨S_, .f32⟩
  | .hbm, ⟨4, _⟩ => ⟨S4096000x4, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S_, .f32⟩
  | .hbm, ⟨11, _⟩ => ⟨S96000, .f32⟩
  | .hbm, ⟨12, _⟩ => ⟨S4096000x4, .f32⟩
  | .hbm, ⟨13, _⟩ => ⟨S_, .i32⟩
  | .hbm, ⟨14, _⟩ => ⟨S_, .f32⟩
  | .hbm, ⟨15, _⟩ => ⟨S4096000x3, .f32⟩
  | .hbm, ⟨16, _⟩ => ⟨S4x4096000, .f32⟩
  | .hbm, ⟨17, _⟩ => ⟨S4x32000x128, .f32⟩
  | .hbm, ⟨18, _⟩ => ⟨S3x4096000, .f32⟩
  | .hbm, ⟨19, _⟩ => ⟨S3x32000x128, .f32⟩
  | .hbm, ⟨20, _⟩ => ⟨S9x32000x128, .f32⟩
  | .hbm, ⟨21, _⟩ => ⟨S9x4096000, .f32⟩
  | .hbm, ⟨22, _⟩ => ⟨S4096000x9, .f32⟩
  | .hbm, ⟨23, _⟩ => ⟨S4000000x9, .f32⟩
  | .hbm, ⟨24, _⟩ => ⟨S4000000x3x3, .f32⟩
  | .local _ .vmem, ⟨0, _⟩ => ⟨S4x1000x128, .f32⟩
  | .local _ .vmem, ⟨1, _⟩ => ⟨S4x1000x128, .f32⟩
  | .local _ .vmem, ⟨2, _⟩ => ⟨S3x1000x128, .f32⟩
  | .local _ .vmem, ⟨3, _⟩ => ⟨S3x1000x128, .f32⟩
  | .local _ .vmem, ⟨4, _⟩ => ⟨S9x1000x128, .f32⟩
  | .local _ .vmem, ⟨5, _⟩ => ⟨S9x1000x128, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4000000x4_S4096000x4_0960000_000 : S4000000x4.Pads (![0, 0] : Fin 2 → Nat) ![96000, 0] ![0, 0] S4096000x4
  h_S_ : 0 < S_.numel
  bcast_S_S1 : S_.BroadcastsInDim S1 (![] : Fin 0 → Fin S1.rank)
  concatenates_S1_S1_S2_d0 : Shape.Concatenates [S1, S1] S2 0
  bcast_S_S96000 : S_.BroadcastsInDim S96000 (![] : Fin 0 → Fin S96000.rank)
  pads_S4000000x3_S4096000x3_0960000_000 : S4000000x3.Pads (![0, 0] : Fin 2 → Nat) ![96000, 0] ![0, 0] S4096000x3
  transposes_S4096000x4_S4x4096000_1_0 : S4096000x4.Transposes [1, 0] S4x4096000
  shapeCasts_S4x4096000_S4x32000x128 : S4x4096000.ShapeCasts S4x32000x128
  transposes_S4096000x3_S3x4096000_1_0 : S4096000x3.Transposes [1, 0] S3x4096000
  shapeCasts_S3x4096000_S3x32000x128 : S3x4096000.ShapeCasts S3x32000x128
  inb_S4x1000x128_S1x1000x128_0_0_0 : ∀ a, (![0, 0, 0] : Fin 3 → Nat) a + S1x1000x128.size a ≤ S4x1000x128.size a
  h_S1x1000x128 : 0 < S1x1000x128.numel
  shapeCasts_S1x1000x128_S1000x128 : S1x1000x128.ShapeCasts S1000x128
  inb_S4x1000x128_S1x1000x128_1_0_0 : ∀ a, (![1, 0, 0] : Fin 3 → Nat) a + S1x1000x128.size a ≤ S4x1000x128.size a
  inb_S4x1000x128_S1x1000x128_2_0_0 : ∀ a, (![2, 0, 0] : Fin 3 → Nat) a + S1x1000x128.size a ≤ S4x1000x128.size a
  inb_S4x1000x128_S1x1000x128_3_0_0 : ∀ a, (![3, 0, 0] : Fin 3 → Nat) a + S1x1000x128.size a ≤ S4x1000x128.size a
  inb_S3x1000x128_S1x1000x128_0_0_0 : ∀ a, (![0, 0, 0] : Fin 3 → Nat) a + S1x1000x128.size a ≤ S3x1000x128.size a
  inb_S3x1000x128_S1x1000x128_1_0_0 : ∀ a, (![1, 0, 0] : Fin 3 → Nat) a + S1x1000x128.size a ≤ S3x1000x128.size a
  inb_S3x1000x128_S1x1000x128_2_0_0 : ∀ a, (![2, 0, 0] : Fin 3 → Nat) a + S1x1000x128.size a ≤ S3x1000x128.size a
  inb_S9x1000x128_S1x1000x128_0_0_0 : ∀ a, (![0, 0, 0] : Fin 3 → Nat) a + S1x1000x128.size a ≤ S9x1000x128.size a
  shapeCasts_S1000x128_S1x1000x128 : S1000x128.ShapeCasts S1x1000x128
  inb_S9x1000x128_S1x1000x128_1_0_0 : ∀ a, (![1, 0, 0] : Fin 3 → Nat) a + S1x1000x128.size a ≤ S9x1000x128.size a
  inb_S9x1000x128_S1x1000x128_2_0_0 : ∀ a, (![2, 0, 0] : Fin 3 → Nat) a + S1x1000x128.size a ≤ S9x1000x128.size a
  inb_S9x1000x128_S1x1000x128_3_0_0 : ∀ a, (![3, 0, 0] : Fin 3 → Nat) a + S1x1000x128.size a ≤ S9x1000x128.size a
  inb_S9x1000x128_S1x1000x128_4_0_0 : ∀ a, (![4, 0, 0] : Fin 3 → Nat) a + S1x1000x128.size a ≤ S9x1000x128.size a
  inb_S9x1000x128_S1x1000x128_5_0_0 : ∀ a, (![5, 0, 0] : Fin 3 → Nat) a + S1x1000x128.size a ≤ S9x1000x128.size a
  inb_S9x1000x128_S1x1000x128_6_0_0 : ∀ a, (![6, 0, 0] : Fin 3 → Nat) a + S1x1000x128.size a ≤ S9x1000x128.size a
  inb_S9x1000x128_S1x1000x128_7_0_0 : ∀ a, (![7, 0, 0] : Fin 3 → Nat) a + S1x1000x128.size a ≤ S9x1000x128.size a
  inb_S9x1000x128_S1x1000x128_8_0_0 : ∀ a, (![8, 0, 0] : Fin 3 → Nat) a + S1x1000x128.size a ≤ S9x1000x128.size a
  shapeCasts_S9x32000x128_S9x4096000 : S9x32000x128.ShapeCasts S9x4096000
  transposes_S9x4096000_S4096000x9_1_0 : S9x4096000.Transposes [1, 0] S4096000x9
  slices_S4096000x9_S4000000x9_0_0 : S4096000x9.Slices ![0, 0] S4000000x9
  shapeCasts_S4000000x9_S4000000x3x3 : S4000000x9.ShapeCasts S4000000x3x3
  scatter_S4096000x4_S2_S96000_0_1_01_0_wf : ScatterDims.WF S4096000x4 S2 S96000 [0] [1] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1000x128.size a ≤ S4x32000x128.size a
  hwx0_0 : ∀ i : grid0.Coords, EltTy.bits .f32 = 32 ∨ (Rect.block (s := S4x32000x128) S4x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1000x128.size a ≤ S3x32000x128.size a
  hwx0_1 : ∀ i : grid0.Coords, EltTy.bits .f32 = 32 ∨ (Rect.block (s := S3x32000x128) S3x1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x1000x128.size a ≤ S9x32000x128.size a
  hwx0_2 : ∀ i : grid0.Coords, EltTy.bits .f32 = 32 ∨ (Rect.block (s := S9x32000x128) S9x1000x128.size (cc0_transform_2 i) (hinb0_2 i)).WholeWords (EltTy.packing .f32)

variable [Facts₀]

def scatter_S4096000x4_S2_S96000_0_1_01_0 : ScatterDims S4096000x4 S2 S96000 where
  updateWindowDims := [0]
  insertedWindowDims := [1]
  scatterDimsToOperandDims := [0, 1]
  indexVectorDim := 0
  wf := scatter_S4096000x4_S2_S96000_0_1_01_0_wf

abbrev win0_0 : Pipeline.Window sig grid0 :=
  Pipeline.Window.ofSpec (Memref.whole main_v8) S4x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S3x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S9x1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 99
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S_, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x9, .f32⟩
  | .hbm, ⟨90, _⟩ => ⟨S4000000x3x3, .f32⟩
  | .hbm, ⟨91, _⟩ => ⟨S4000000x3, .f32⟩
  | .hbm, ⟨92, _⟩ => ⟨S_, .f32⟩
  | .hbm, ⟨93, _⟩ => ⟨S4000000x3, .f32⟩
  | .hbm, ⟨94, _⟩ => ⟨S4000000x3, .f32⟩
  | .hbm, ⟨95, _⟩ => ⟨S4000000x1x3, .f32⟩
  | .hbm, ⟨96, _⟩ => ⟨S4000000x3x3, .f32⟩
  | .hbm, ⟨97, _⟩ => ⟨S4000000x3x3, .f32⟩
  | .hbm, ⟨98, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S_S4000000x3 : S_.BroadcastsInDim S4000000x3 (![] : Fin 0 → Fin S4000000x3.rank)
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The covariance of one Gaussian as a function of seven extended reals: a quaternion (w, x, y, z) and three
  scales (a, b, c). The quaternion is normalised, the rotation matrix R of the normalised quaternion is built
  entry by entry, its columns are scaled by |a| + ε, |b| + ε, |c| + ε, and the result is (RS)(RS)ᵀ. Two ways of
  normalising are compared: the product with the reciprocal square root of the sum of squares, and the quotient
  by the square root of the sum of squares. On the extended reals they agree whenever the sum of squares is
  positive (at +∞ both give 0); everything after the normalisation is the same expression on both sides, up to
  the order of the three products in each entry of the symmetric result.
-/
import Idealize.ShloMosaic.PureOps.Ideal
import Mathlib.Algebra.BigOperators.Fin

noncomputable section

namespace Cert.Cov

open Idealize.ShloMosaic

/-- The literals 1, 2 and ε = f32(1e-8), kept as the words both programs carry. -/
abbrev one : EReal := Ideal.ofBits .f32 0x3F800000#32
abbrev two : EReal := Ideal.ofBits .f32 0x40000000#32
abbrev eps : EReal := Ideal.ofBits .f32 0x322BCC77#32

/-- The sum of the four squares, associated to the left. -/
def sumsq (w x y z : EReal) : EReal := ((w * w + x * x) + y * y) + z * z

/-- A diagonal entry of the rotation: 1 − 2(a² + b²). -/
def dg (a b : EReal) : EReal := one - two * (a * a + b * b)
/-- An off-diagonal entry of the rotation: 2(ab − cd). -/
def om (a b c d : EReal) : EReal := two * (a * b - c * d)
/-- An off-diagonal entry of the rotation: 2(ab + cd). -/
def op (a b c d : EReal) : EReal := two * (a * b + c * d)
/-- A scale: |a| + ε. -/
def sc (a : EReal) : EReal := max a (-a) + eps

/-- The rotation matrix of a quaternion (w, x, y, z), row by row. -/
def rot (w x y z : EReal) (i j : Fin 3) : EReal :=
  (![![dg y z, om x y w z, op x z w y], ![op x y w z, dg x z, om y z w x], ![om x z w y, op y z w x, dg x y]] i) j

/-- The rotation with column j scaled by the j-th scale. -/
def rs (w x y z a b c : EReal) (i j : Fin 3) : EReal := rot w x y z i j * (![sc a, sc b, sc c] j)

/-- The product of two rows of three, summed from the left. -/
def dot3 (u v : Fin 3 → EReal) : EReal := (u 0 * v 0 + u 1 * v 1) + u 2 * v 2

theorem dot3_comm (u v : Fin 3 → EReal) : dot3 u v = dot3 v u := by
  unfold dot3; rw [mul_comm (u 0), mul_comm (u 1), mul_comm (u 2)]

/-- Multiplying by the reciprocal square root is dividing by the square root, for a positive extended real:
    on a positive real both are the product with (√n)⁻¹, and at +∞ both are 0. -/
theorem mul_rsqrt_eq_div_sqrt (w n : EReal) (hn : 0 < n) : w * Ideal.rsqrt n = Ideal.div w (Ideal.sqrt n) := by
  induction n using EReal.rec with
  | bot => exact absurd hn (by simp)
  | top =>
    rw [Ideal.rsqrt_top, Ideal.sqrt_top, Ideal.div, if_neg (by simp), EReal.inv_top]
  | coe r =>
    have hr : 0 < r := by exact_mod_cast hn
    have hs : Real.sqrt r ≠ 0 := (Real.sqrt_pos.2 hr).ne'
    rw [Ideal.rsqrt_coe, if_neg (not_lt.2 hr.le), if_neg hr.ne', Ideal.sqrt_coe, if_neg (not_lt.2 hr.le),
      Ideal.div_coe hs, one_div]

/-- The nine planes the kernel stores are the six entries of the upper triangle of the symmetric result, three of
    them twice: plane p holds the product of rows rowOf p and colOf p of the scaled rotation. -/
def rowOf : Fin 9 → Fin 3 := ![0, 0, 0, 0, 1, 1, 0, 1, 2]
def colOf : Fin 9 → Fin 3 := ![0, 1, 2, 1, 1, 2, 2, 2, 2]

/-- Plane p of the result, with the quaternion normalised by the reciprocal square root of its sum of squares. -/
def kPlane (w x y z a b c : EReal) (p : Fin 9) : EReal :=
  dot3 (rs (w * Ideal.rsqrt (sumsq w x y z)) (x * Ideal.rsqrt (sumsq w x y z)) (y * Ideal.rsqrt (sumsq w x y z))
          (z * Ideal.rsqrt (sumsq w x y z)) a b c (rowOf p))
       (rs (w * Ideal.rsqrt (sumsq w x y z)) (x * Ideal.rsqrt (sumsq w x y z)) (y * Ideal.rsqrt (sumsq w x y z))
          (z * Ideal.rsqrt (sumsq w x y z)) a b c (colOf p))

end Cert.Cov

end
-- ==== Proof.KernelBlock.lean ====
/-
  One block of the kernel's output, element by element. A block is nine planes of 1000 × 128 elements; plane p at
  (r, l) is plane p of the covariance of the quaternion read at (·, r, l) of the first input block and the
  scales read at (·, r, l) of the second. The body computes on whole planes, so each stored plane at (r, l) is the
  scalar expression of the seven loaded planes at (r, l).
-/
import proofs.«114946_j41480794145202_2_alg».proof.Proof.Gen.KernelIdeal.Frame
import proofs.«114946_j41480794145202_2_alg».proof.Proof.Spec
import Idealize.ShloMosaic.Lib.Pipeline.Value
import Idealize.ShloMosaic.Lib.ValueIdx

set_option maxRecDepth 16384

noncomputable section

namespace Cert.KSide

open Idealize.ShloMosaic Idealize.ShloMosaic.ValueIdx Cert.KernelIdeal Cert.KernelIdeal.Gen Cert.Cov

/-- The block as one function of the two input blocks. -/
def blk (x0 : S4x1000x128.Idx → EReal) (x1 : S3x1000x128.Idx → EReal) (y : S9x1000x128.Idx) : EReal :=
  kPlane (x0 (ix3 (n0 := 4) (n1 := 1000) (n2 := 128) 0 (y 1) (y 2))) (x0 (ix3 (n0 := 4) (n1 := 1000) (n2 := 128) 1 (y 1) (y 2)))
    (x0 (ix3 (n0 := 4) (n1 := 1000) (n2 := 128) 2 (y 1) (y 2))) (x0 (ix3 (n0 := 4) (n1 := 1000) (n2 := 128) 3 (y 1) (y 2)))
    (x1 (ix3 (n0 := 3) (n1 := 1000) (n2 := 128) 0 (y 1) (y 2))) (x1 (ix3 (n0 := 3) (n1 := 1000) (n2 := 128) 1 (y 1) (y 2)))
    (x1 (ix3 (n0 := 3) (n1 := 1000) (n2 := 128) 2 (y 1) (y 2))) (y 0)

/-- Plane 8 of the body's result at an element, as the scalar expression of the loaded planes there. -/
theorem plane8_generic (v0 v2 v4 v6 v20 v25 v30 : Vec Ideal S1x1000x128 .f32) (x : S1x1000x128.Idx) :
    (k0_pay7 (k0_pay42 (k0_pay17 v20) (k0_pay18 v25) (k0_pay19 v30) (k0_pay26 (k0_pay13 v0 v2 v4 v6) (k0_pay14 v0 v2 v4 v6) (k0_pay15 v0 v2 v4 v6) (k0_pay16 v0 v2 v4 v6)) (k0_pay27 (k0_pay13 v0 v2 v4 v6) (k0_pay14 v0 v2 v4 v6) (k0_pay15 v0 v2 v4 v6) (k0_pay16 v0 v2 v4 v6)) (k0_pay28 (k0_pay14 v0 v2 v4 v6) (k0_pay15 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 8 := by
  unfold k0_pay7
  exact (shapeCast_addUnit_apply _ _ _ x).trans rfl

/-- Plane 7 of the body's result at an element, as the scalar expression of the loaded planes there. -/
theorem plane7_generic (v0 v2 v4 v6 v20 v25 v30 : Vec Ideal S1x1000x128 .f32) (x : S1x1000x128.Idx) :
    (k0_pay6 (k0_pay41 (k0_pay17 v20) (k0_pay18 v25) (k0_pay19 v30) (k0_pay23 (k0_pay13 v0 v2 v4 v6) (k0_pay14 v0 v2 v4 v6) (k0_pay15 v0 v2 v4 v6) (k0_pay16 v0 v2 v4 v6)) (k0_pay24 (k0_pay14 v0 v2 v4 v6) (k0_pay16 v0 v2 v4 v6)) (k0_pay25 (k0_pay13 v0 v2 v4 v6) (k0_pay14 v0 v2 v4 v6) (k0_pay15 v0 v2 v4 v6) (k0_pay16 v0 v2 v4 v6)) (k0_pay26 (k0_pay13 v0 v2 v4 v6) (k0_pay14 v0 v2 v4 v6) (k0_pay15 v0 v2 v4 v6) (k0_pay16 v0 v2 v4 v6)) (k0_pay27 (k0_pay13 v0 v2 v4 v6) (k0_pay14 v0 v2 v4 v6) (k0_pay15 v0 v2 v4 v6) (k0_pay16 v0 v2 v4 v6)) (k0_pay28 (k0_pay14 v0 v2 v4 v6) (k0_pay15 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 7 := by
  unfold k0_pay6
  exact (shapeCast_addUnit_apply _ _ _ x).trans rfl

/-- Plane 6 of the body's result at an element, as the scalar expression of the loaded planes there. -/
theorem plane6_generic (v0 v2 v4 v6 v20 v25 v30 : Vec Ideal S1x1000x128 .f32) (x : S1x1000x128.Idx) :
    (k0_pay5 (k0_pay39 (k0_pay17 v20) (k0_pay18 v25) (k0_pay19 v30) (k0_pay20 (k0_pay15 v0 v2 v4 v6) (k0_pay16 v0 v2 v4 v6)) (k0_pay21 (k0_pay13 v0 v2 v4 v6) (k0_pay14 v0 v2 v4 v6) (k0_pay15 v0 v2 v4 v6) (k0_pay16 v0 v2 v4 v6)) (k0_pay22 (k0_pay13 v0 v2 v4 v6) (k0_pay14 v0 v2 v4 v6) (k0_pay15 v0 v2 v4 v6) (k0_pay16 v0 v2 v4 v6)) (k0_pay26 (k0_pay13 v0 v2 v4 v6) (k0_pay14 v0 v2 v4 v6) (k0_pay15 v0 v2 v4 v6) (k0_pay16 v0 v2 v4 v6)) (k0_pay27 (k0_pay13 v0 v2 v4 v6) (k0_pay14 v0 v2 v4 v6) (k0_pay15 v0 v2 v4 v6) (k0_pay16 v0 v2 v4 v6)) (k0_pay28 (k0_pay14 v0 v2 v4 v6) (k0_pay15 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 6 := by
  unfold k0_pay5
  exact (shapeCast_addUnit_apply _ _ _ x).trans rfl

/-- Plane 5 of the body's result at an element, as the scalar expression of the loaded planes there. -/
theorem plane5_generic (v0 v2 v4 v6 v20 v25 v30 : Vec Ideal S1x1000x128 .f32) (x : S1x1000x128.Idx) :
    (k0_pay4 (k0_pay41 (k0_pay17 v20) (k0_pay18 v25) (k0_pay19 v30) (k0_pay23 (k0_pay13 v0 v2 v4 v6) (k0_pay14 v0 v2 v4 v6) (k0_pay15 v0 v2 v4 v6) (k0_pay16 v0 v2 v4 v6)) (k0_pay24 (k0_pay14 v0 v2 v4 v6) (k0_pay16 v0 v2 v4 v6)) (k0_pay25 (k0_pay13 v0 v2 v4 v6) (k0_pay14 v0 v2 v4 v6) (k0_pay15 v0 v2 v4 v6) (k0_pay16 v0 v2 v4 v6)) (k0_pay26 (k0_pay13 v0 v2 v4 v6) (k0_pay14 v0 v2 v4 v6) (k0_pay15 v0 v2 v4 v6) (k0_pay16 v0 v2 v4 v6)) (k0_pay27 (k0_pay13 v0 v2 v4 v6) (k0_pay14 v0 v2 v4 v6) (k0_pay15 v0 v2 v4 v6) (k0_pay16 v0 v2 v4 v6)) (k0_pay28 (k0_pay14 v0 v2 v4 v6) (k0_pay15 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 5 := by
  unfold k0_pay4
  exact (shapeCast_addUnit_apply _ _ _ x).trans rfl

/-- Plane 4 of the body's result at an element, as the scalar expression of the loaded planes there. -/
theorem plane4_generic (v0 v2 v4 v6 v20 v25 v30 : Vec Ideal S1x1000x128 .f32) (x : S1x1000x128.Idx) :
    (k0_pay3 (k0_pay40 (k0_pay17 v20) (k0_pay18 v25) (k0_pay19 v30) (k0_pay23 (k0_pay13 v0 v2 v4 v6) (k0_pay14 v0 v2 v4 v6) (k0_pay15 v0 v2 v4 v6) (k0_pay16 v0 v2 v4 v6)) (k0_pay24 (k0_pay14 v0 v2 v4 v6) (k0_pay16 v0 v2 v4 v6)) (k0_pay25 (k0_pay13 v0 v2 v4 v6) (k0_pay14 v0 v2 v4 v6) (k0_pay15 v0 v2 v4 v6) (k0_pay16 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 4 := by
  unfold k0_pay3
  exact (shapeCast_addUnit_apply _ _ _ x).trans rfl

/-- Plane 3 of the body's result at an element, as the scalar expression of the loaded planes there. -/
theorem plane3_generic (v0 v2 v4 v6 v20 v25 v30 : Vec Ideal S1x1000x128 .f32) (x : S1x1000x128.Idx) :
    (k0_pay2 (k0_pay38 (k0_pay17 v20) (k0_pay18 v25) (k0_pay19 v30) (k0_pay20 (k0_pay15 v0 v2 v4 v6) (k0_pay16 v0 v2 v4 v6)) (k0_pay21 (k0_pay13 v0 v2 v4 v6) (k0_pay14 v0 v2 v4 v6) (k0_pay15 v0 v2 v4 v6) (k0_pay16 v0 v2 v4 v6)) (k0_pay22 (k0_pay13 v0 v2 v4 v6) (k0_pay14 v0 v2 v4 v6) (k0_pay15 v0 v2 v4 v6) (k0_pay16 v0 v2 v4 v6)) (k0_pay23 (k0_pay13 v0 v2 v4 v6) (k0_pay14 v0 v2 v4 v6) (k0_pay15 v0 v2 v4 v6) (k0_pay16 v0 v2 v4 v6)) (k0_pay24 (k0_pay14 v0 v2 v4 v6) (k0_pay16 v0 v2 v4 v6)) (k0_pay25 (k0_pay13 v0 v2 v4 v6) (k0_pay14 v0 v2 v4 v6) (k0_pay15 v0 v2 v4 v6) (k0_pay16 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 3 := by
  unfold k0_pay2
  exact (shapeCast_addUnit_apply _ _ _ x).trans rfl

/-- Plane 2 of the body's result at an element, as the scalar expression of the loaded planes there. -/
theorem plane2_generic (v0 v2 v4 v6 v20 v25 v30 : Vec Ideal S1x1000x128 .f32) (x : S1x1000x128.Idx) :
    (k0_pay1 (k0_pay39 (k0_pay17 v20) (k0_pay18 v25) (k0_pay19 v30) (k0_pay20 (k0_pay15 v0 v2 v4 v6) (k0_pay16 v0 v2 v4 v6)) (k0_pay21 (k0_pay13 v0 v2 v4 v6) (k0_pay14 v0 v2 v4 v6) (k0_pay15 v0 v2 v4 v6) (k0_pay16 v0 v2 v4 v6)) (k0_pay22 (k0_pay13 v0 v2 v4 v6) (k0_pay14 v0 v2 v4 v6) (k0_pay15 v0 v2 v4 v6) (k0_pay16 v0 v2 v4 v6)) (k0_pay26 (k0_pay13 v0 v2 v4 v6) (k0_pay14 v0 v2 v4 v6) (k0_pay15 v0 v2 v4 v6) (k0_pay16 v0 v2 v4 v6)) (k0_pay27 (k0_pay13 v0 v2 v4 v6) (k0_pay14 v0 v2 v4 v6) (k0_pay15 v0 v2 v4 v6) (k0_pay16 v0 v2 v4 v6)) (k0_pay28 (k0_pay14 v0 v2 v4 v6) (k0_pay15 v0 v2 v4 v6)))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 2 := by
  unfold k0_pay1
  exact (shapeCast_addUnit_apply _ _ _ x).trans rfl

/-- Plane 1 of the body's result at an element, as the scalar expression of the loaded planes there. -/
theorem plane1_generic (v0 v2 v4 v6 v20 v25 v30 : Vec Ideal S1x1000x128 .f32) (x : S1x1000x128.Idx) :
    (k0_pay44 (k0_pay17 v20) (k0_pay18 v25) (k0_pay19 v30) (k0_pay20 (k0_pay15 v0 v2 v4 v6) (k0_pay16 v0 v2 v4 v6)) (k0_pay21 (k0_pay13 v0 v2 v4 v6) (k0_pay14 v0 v2 v4 v6) (k0_pay15 v0 v2 v4 v6) (k0_pay16 v0 v2 v4 v6)) (k0_pay22 (k0_pay13 v0 v2 v4 v6) (k0_pay14 v0 v2 v4 v6) (k0_pay15 v0 v2 v4 v6) (k0_pay16 v0 v2 v4 v6)) (k0_pay23 (k0_pay13 v0 v2 v4 v6) (k0_pay14 v0 v2 v4 v6) (k0_pay15 v0 v2 v4 v6) (k0_pay16 v0 v2 v4 v6)) (k0_pay24 (k0_pay14 v0 v2 v4 v6) (k0_pay16 v0 v2 v4 v6)) (k0_pay25 (k0_pay13 v0 v2 v4 v6) (k0_pay14 v0 v2 v4 v6) (k0_pay15 v0 v2 v4 v6) (k0_pay16 v0 v2 v4 v6))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 1 := by
  unfold k0_pay44
  exact (shapeCast_addUnit_apply _ _ _ x).trans rfl

/-- Plane 0 of the body's result at an element, as the scalar expression of the loaded planes there. -/
theorem plane0_generic (v0 v2 v4 v6 v20 v25 v30 : Vec Ideal S1x1000x128 .f32) (x : S1x1000x128.Idx) :
    (k0_pay43 (k0_pay17 v20) (k0_pay18 v25) (k0_pay19 v30) (k0_pay20 (k0_pay15 v0 v2 v4 v6) (k0_pay16 v0 v2 v4 v6)) (k0_pay21 (k0_pay13 v0 v2 v4 v6) (k0_pay14 v0 v2 v4 v6) (k0_pay15 v0 v2 v4 v6) (k0_pay16 v0 v2 v4 v6)) (k0_pay22 (k0_pay13 v0 v2 v4 v6) (k0_pay14 v0 v2 v4 v6) (k0_pay15 v0 v2 v4 v6) (k0_pay16 v0 v2 v4 v6))) x
      = kPlane (k0_pay8 v0 (fun a => x a.succ)) (k0_pay8 v2 (fun a => x a.succ)) (k0_pay8 v4 (fun a => x a.succ)) (k0_pay8 v6 (fun a => x a.succ))
          (k0_pay8 v20 (fun a => x a.succ)) (k0_pay8 v25 (fun a => x a.succ)) (k0_pay8 v30 (fun a => x a.succ)) 0 := by
  unfold k0_pay43
  exact (shapeCast_addUnit_apply _ _ _ x).trans rfl

/-- A loaded plane, with its unit axis dropped, read at (r, l): the input block at (0, r, l). -/
theorem leaf0 (x0 : Vec Ideal S4x1000x128 .f32) (x : S1x1000x128.Idx) :
    k0_pay8 (F := Ideal) (View.ld x0 r0_0) (fun a => x a.succ) = x0 (ix3 (n0 := 4) (n1 := 1000) (n2 := 128) 0 (x 1) (x 2)) := by
  unfold k0_pay8
  refine (shapeCast_dropUnit_apply _ _ _ _).trans ?_
  refine congrArg x0 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- A loaded plane, with its unit axis dropped, read at (r, l): the input block at (1, r, l). -/
theorem leaf1 (x0 : Vec Ideal S4x1000x128 .f32) (x : S1x1000x128.Idx) :
    k0_pay8 (F := Ideal) (View.ld x0 r0_1) (fun a => x a.succ) = x0 (ix3 (n0 := 4) (n1 := 1000) (n2 := 128) 1 (x 1) (x 2)) := by
  unfold k0_pay8
  refine (shapeCast_dropUnit_apply _ _ _ _).trans ?_
  refine congrArg x0 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- A loaded plane, with its unit axis dropped, read at (r, l): the input block at (2, r, l). -/
theorem leaf2 (x0 : Vec Ideal S4x1000x128 .f32) (x : S1x1000x128.Idx) :
    k0_pay8 (F := Ideal) (View.ld x0 r0_2) (fun a => x a.succ) = x0 (ix3 (n0 := 4) (n1 := 1000) (n2 := 128) 2 (x 1) (x 2)) := by
  unfold k0_pay8
  refine (shapeCast_dropUnit_apply _ _ _ _).trans ?_
  refine congrArg x0 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- A loaded plane, with its unit axis dropped, read at (r, l): the input block at (3, r, l). -/
theorem leaf3 (x0 : Vec Ideal S4x1000x128 .f32) (x : S1x1000x128.Idx) :
    k0_pay8 (F := Ideal) (View.ld x0 r0_3) (fun a => x a.succ) = x0 (ix3 (n0 := 4) (n1 := 1000) (n2 := 128) 3 (x 1) (x 2)) := by
  unfold k0_pay8
  refine (shapeCast_dropUnit_apply _ _ _ _).trans ?_
  refine congrArg x0 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- A loaded plane, with its unit axis dropped, read at (r, l): the input block at (0, r, l). -/
theorem leaf4 (x1 : Vec Ideal S3x1000x128 .f32) (x : S1x1000x128.Idx) :
    k0_pay8 (F := Ideal) (View.ld x1 r0_4) (fun a => x a.succ) = x1 (ix3 (n0 := 3) (n1 := 1000) (n2 := 128) 0 (x 1) (x 2)) := by
  unfold k0_pay8
  refine (shapeCast_dropUnit_apply _ _ _ _).trans ?_
  refine congrArg x1 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- A loaded plane, with its unit axis dropped, read at (r, l): the input block at (1, r, l). -/
theorem leaf5 (x1 : Vec Ideal S3x1000x128 .f32) (x : S1x1000x128.Idx) :
    k0_pay8 (F := Ideal) (View.ld x1 r0_5) (fun a => x a.succ) = x1 (ix3 (n0 := 3) (n1 := 1000) (n2 := 128) 1 (x 1) (x 2)) := by
  unfold k0_pay8
  refine (shapeCast_dropUnit_apply _ _ _ _).trans ?_
  refine congrArg x1 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- A loaded plane, with its unit axis dropped, read at (r, l): the input block at (2, r, l). -/
theorem leaf6 (x1 : Vec Ideal S3x1000x128 .f32) (x : S1x1000x128.Idx) :
    k0_pay8 (F := Ideal) (View.ld x1 r0_6) (fun a => x a.succ) = x1 (ix3 (n0 := 3) (n1 := 1000) (n2 := 128) 2 (x 1) (x 2)) := by
  unfold k0_pay8
  refine (shapeCast_dropUnit_apply _ _ _ _).trans ?_
  refine congrArg x1 (funext fun a => Fin.ext ?_)
  match a with
  | ⟨0, _⟩ => rfl
  | ⟨1, _⟩ => show 0 + 1 * (x 1).val = (x 1).val; omega
  | ⟨2, _⟩ => show 0 + 1 * (x 2).val = (x 2).val; omega

/-- The store of plane 8 agrees with the block function under its rectangle. -/
theorem piece8 (x0 : Vec Ideal S4x1000x128 .f32) (x1 : Vec Ideal S3x1000x128 .f32) (x : S1x1000x128.Idx) :
    (k0_pay7 (k0_pay42 (k0_pay17 (View.ld x1 r0_4)) (k0_pay18 (View.ld x1 r0_5)) (k0_pay19 (View.ld x1 r0_6)) (k0_pay26 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay27 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay28 (k0_pay14 (View.ld x0 r0_0) (View.ld x0 r0_1) (View.ld x0 r0_2) (View.ld x0 r0_3)) (k0_pay15 (View.ld x0 r0_0) (View.ld x0 r0_1) (View.ld x0 r0_2) (View.ld x0 r0_3))))) x = blk x0 x1 (r0_15.emb x) := by
  rw [plane8_generic, leaf0, leaf1, leaf2, leaf3, leaf4, leaf5, leaf6]
  have h0 : (x 0).val < 1 := (x 0).isLt
  have e0 : (r0_15.emb x) 0 = (8 : Fin 9) := Fin.ext (by show 8 + 1 * (x 0).val = 8; omega)
  have e1 : (r0_15.emb x) 1 = x 1 := Fin.ext (by show 0 + 1 * (x 1).val = (x 1).val; omega)
  have e2 : (r0_15.emb x) 2 = x 2 := Fin.ext (by show 0 + 1 * (x 2).val = (x 2).val; omega)
  unfold blk
  rw [e0, e1, e2]

/-- The store of plane 7 agrees with the block function under its rectangle. -/
theorem piece7 (x0 : Vec Ideal S4x1000x128 .f32) (x1 : Vec Ideal S3x1000x128 .f32) (x : S1x1000x128.Idx) :
    (k0_pay6 (k0_pay41 (k0_pay17 (View.ld x1 r0_4)) (k0_pay18 (View.ld x1 r0_5)) (k0_pay19 (View.ld x1 r0_6)) (k0_pay23 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay24 (k0_pay14 (View.ld x0 r0_0) (View.ld x0 r0_1) (View.ld x0 r0_2) (View.ld x0 r0_3)) (k0_pay16 (View.ld x0 r0_0) (View.ld x0 r0_1) (View.ld x0 r0_2) (View.ld x0 r0_3))) (k0_pay25 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay26 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay27 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay28 (k0_pay14 (View.ld x0 r0_0) (View.ld x0 r0_1) (View.ld x0 r0_2) (View.ld x0 r0_3)) (k0_pay15 (View.ld x0 r0_0) (View.ld x0 r0_1) (View.ld x0 r0_2) (View.ld x0 r0_3))))) x = blk x0 x1 (r0_14.emb x) := by
  rw [plane7_generic, leaf0, leaf1, leaf2, leaf3, leaf4, leaf5, leaf6]
  have h0 : (x 0).val < 1 := (x 0).isLt
  have e0 : (r0_14.emb x) 0 = (7 : Fin 9) := Fin.ext (by show 7 + 1 * (x 0).val = 7; omega)
  have e1 : (r0_14.emb x) 1 = x 1 := Fin.ext (by show 0 + 1 * (x 1).val = (x 1).val; omega)
  have e2 : (r0_14.emb x) 2 = x 2 := Fin.ext (by show 0 + 1 * (x 2).val = (x 2).val; omega)
  unfold blk
  rw [e0, e1, e2]

/-- The store of plane 6 agrees with the block function under its rectangle. -/
theorem piece6 (x0 : Vec Ideal S4x1000x128 .f32) (x1 : Vec Ideal S3x1000x128 .f32) (x : S1x1000x128.Idx) :
    (k0_pay5 (k0_pay39 (k0_pay17 (View.ld x1 r0_4)) (k0_pay18 (View.ld x1 r0_5)) (k0_pay19 (View.ld x1 r0_6)) (k0_pay20 (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay21 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay22 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay26 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay27 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay28 (k0_pay14 (View.ld x0 r0_0) (View.ld x0 r0_1) (View.ld x0 r0_2) (View.ld x0 r0_3)) (k0_pay15 (View.ld x0 r0_0) (View.ld x0 r0_1) (View.ld x0 r0_2) (View.ld x0 r0_3))))) x = blk x0 x1 (r0_13.emb x) := by
  rw [plane6_generic, leaf0, leaf1, leaf2, leaf3, leaf4, leaf5, leaf6]
  have h0 : (x 0).val < 1 := (x 0).isLt
  have e0 : (r0_13.emb x) 0 = (6 : Fin 9) := Fin.ext (by show 6 + 1 * (x 0).val = 6; omega)
  have e1 : (r0_13.emb x) 1 = x 1 := Fin.ext (by show 0 + 1 * (x 1).val = (x 1).val; omega)
  have e2 : (r0_13.emb x) 2 = x 2 := Fin.ext (by show 0 + 1 * (x 2).val = (x 2).val; omega)
  unfold blk
  rw [e0, e1, e2]

/-- The store of plane 5 agrees with the block function under its rectangle. -/
theorem piece5 (x0 : Vec Ideal S4x1000x128 .f32) (x1 : Vec Ideal S3x1000x128 .f32) (x : S1x1000x128.Idx) :
    (k0_pay4 (k0_pay41 (k0_pay17 (View.ld x1 r0_4)) (k0_pay18 (View.ld x1 r0_5)) (k0_pay19 (View.ld x1 r0_6)) (k0_pay23 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay24 (k0_pay14 (View.ld x0 r0_0) (View.ld x0 r0_1) (View.ld x0 r0_2) (View.ld x0 r0_3)) (k0_pay16 (View.ld x0 r0_0) (View.ld x0 r0_1) (View.ld x0 r0_2) (View.ld x0 r0_3))) (k0_pay25 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay26 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay27 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay28 (k0_pay14 (View.ld x0 r0_0) (View.ld x0 r0_1) (View.ld x0 r0_2) (View.ld x0 r0_3)) (k0_pay15 (View.ld x0 r0_0) (View.ld x0 r0_1) (View.ld x0 r0_2) (View.ld x0 r0_3))))) x = blk x0 x1 (r0_12.emb x) := by
  rw [plane5_generic, leaf0, leaf1, leaf2, leaf3, leaf4, leaf5, leaf6]
  have h0 : (x 0).val < 1 := (x 0).isLt
  have e0 : (r0_12.emb x) 0 = (5 : Fin 9) := Fin.ext (by show 5 + 1 * (x 0).val = 5; omega)
  have e1 : (r0_12.emb x) 1 = x 1 := Fin.ext (by show 0 + 1 * (x 1).val = (x 1).val; omega)
  have e2 : (r0_12.emb x) 2 = x 2 := Fin.ext (by show 0 + 1 * (x 2).val = (x 2).val; omega)
  unfold blk
  rw [e0, e1, e2]

/-- The store of plane 4 agrees with the block function under its rectangle. -/
theorem piece4 (x0 : Vec Ideal S4x1000x128 .f32) (x1 : Vec Ideal S3x1000x128 .f32) (x : S1x1000x128.Idx) :
    (k0_pay3 (k0_pay40 (k0_pay17 (View.ld x1 r0_4)) (k0_pay18 (View.ld x1 r0_5)) (k0_pay19 (View.ld x1 r0_6)) (k0_pay23 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay24 (k0_pay14 (View.ld x0 r0_0) (View.ld x0 r0_1) (View.ld x0 r0_2) (View.ld x0 r0_3)) (k0_pay16 (View.ld x0 r0_0) (View.ld x0 r0_1) (View.ld x0 r0_2) (View.ld x0 r0_3))) (k0_pay25 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))))) x = blk x0 x1 (r0_11.emb x) := by
  rw [plane4_generic, leaf0, leaf1, leaf2, leaf3, leaf4, leaf5, leaf6]
  have h0 : (x 0).val < 1 := (x 0).isLt
  have e0 : (r0_11.emb x) 0 = (4 : Fin 9) := Fin.ext (by show 4 + 1 * (x 0).val = 4; omega)
  have e1 : (r0_11.emb x) 1 = x 1 := Fin.ext (by show 0 + 1 * (x 1).val = (x 1).val; omega)
  have e2 : (r0_11.emb x) 2 = x 2 := Fin.ext (by show 0 + 1 * (x 2).val = (x 2).val; omega)
  unfold blk
  rw [e0, e1, e2]

/-- The store of plane 3 agrees with the block function under its rectangle. -/
theorem piece3 (x0 : Vec Ideal S4x1000x128 .f32) (x1 : Vec Ideal S3x1000x128 .f32) (x : S1x1000x128.Idx) :
    (k0_pay2 (k0_pay38 (k0_pay17 (View.ld x1 r0_4)) (k0_pay18 (View.ld x1 r0_5)) (k0_pay19 (View.ld x1 r0_6)) (k0_pay20 (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay21 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay22 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay23 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay24 (k0_pay14 (View.ld x0 r0_0) (View.ld x0 r0_1) (View.ld x0 r0_2) (View.ld x0 r0_3)) (k0_pay16 (View.ld x0 r0_0) (View.ld x0 r0_1) (View.ld x0 r0_2) (View.ld x0 r0_3))) (k0_pay25 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))))) x = blk x0 x1 (r0_10.emb x) := by
  rw [plane3_generic, leaf0, leaf1, leaf2, leaf3, leaf4, leaf5, leaf6]
  have h0 : (x 0).val < 1 := (x 0).isLt
  have e0 : (r0_10.emb x) 0 = (3 : Fin 9) := Fin.ext (by show 3 + 1 * (x 0).val = 3; omega)
  have e1 : (r0_10.emb x) 1 = x 1 := Fin.ext (by show 0 + 1 * (x 1).val = (x 1).val; omega)
  have e2 : (r0_10.emb x) 2 = x 2 := Fin.ext (by show 0 + 1 * (x 2).val = (x 2).val; omega)
  unfold blk
  rw [e0, e1, e2]

/-- The store of plane 2 agrees with the block function under its rectangle. -/
theorem piece2 (x0 : Vec Ideal S4x1000x128 .f32) (x1 : Vec Ideal S3x1000x128 .f32) (x : S1x1000x128.Idx) :
    (k0_pay1 (k0_pay39 (k0_pay17 (View.ld x1 r0_4)) (k0_pay18 (View.ld x1 r0_5)) (k0_pay19 (View.ld x1 r0_6)) (k0_pay20 (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay21 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay22 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay26 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay27 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay28 (k0_pay14 (View.ld x0 r0_0) (View.ld x0 r0_1) (View.ld x0 r0_2) (View.ld x0 r0_3)) (k0_pay15 (View.ld x0 r0_0) (View.ld x0 r0_1) (View.ld x0 r0_2) (View.ld x0 r0_3))))) x = blk x0 x1 (r0_9.emb x) := by
  rw [plane2_generic, leaf0, leaf1, leaf2, leaf3, leaf4, leaf5, leaf6]
  have h0 : (x 0).val < 1 := (x 0).isLt
  have e0 : (r0_9.emb x) 0 = (2 : Fin 9) := Fin.ext (by show 2 + 1 * (x 0).val = 2; omega)
  have e1 : (r0_9.emb x) 1 = x 1 := Fin.ext (by show 0 + 1 * (x 1).val = (x 1).val; omega)
  have e2 : (r0_9.emb x) 2 = x 2 := Fin.ext (by show 0 + 1 * (x 2).val = (x 2).val; omega)
  unfold blk
  rw [e0, e1, e2]

/-- The store of plane 1 agrees with the block function under its rectangle. -/
theorem piece1 (x0 : Vec Ideal S4x1000x128 .f32) (x1 : Vec Ideal S3x1000x128 .f32) (x : S1x1000x128.Idx) :
    (k0_pay44 (k0_pay17 (View.ld x1 r0_4)) (k0_pay18 (View.ld x1 r0_5)) (k0_pay19 (View.ld x1 r0_6)) (k0_pay20 (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay21 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay22 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay23 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay24 (k0_pay14 (View.ld x0 r0_0) (View.ld x0 r0_1) (View.ld x0 r0_2) (View.ld x0 r0_3)) (k0_pay16 (View.ld x0 r0_0) (View.ld x0 r0_1) (View.ld x0 r0_2) (View.ld x0 r0_3))) (k0_pay25 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3)))) x = blk x0 x1 (r0_8.emb x) := by
  rw [plane1_generic, leaf0, leaf1, leaf2, leaf3, leaf4, leaf5, leaf6]
  have h0 : (x 0).val < 1 := (x 0).isLt
  have e0 : (r0_8.emb x) 0 = (1 : Fin 9) := Fin.ext (by show 1 + 1 * (x 0).val = 1; omega)
  have e1 : (r0_8.emb x) 1 = x 1 := Fin.ext (by show 0 + 1 * (x 1).val = (x 1).val; omega)
  have e2 : (r0_8.emb x) 2 = x 2 := Fin.ext (by show 0 + 1 * (x 2).val = (x 2).val; omega)
  unfold blk
  rw [e0, e1, e2]

/-- The store of plane 0 agrees with the block function under its rectangle. -/
theorem piece0 (x0 : Vec Ideal S4x1000x128 .f32) (x1 : Vec Ideal S3x1000x128 .f32) (x : S1x1000x128.Idx) :
    (k0_pay43 (k0_pay17 (View.ld x1 r0_4)) (k0_pay18 (View.ld x1 r0_5)) (k0_pay19 (View.ld x1 r0_6)) (k0_pay20 (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay21 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3))) (k0_pay22 (k0_pay13 (View.ld x0 r0_0) (View.ld x0 r0_1) (View.ld x0 r0_2) (View.ld x0 r0_3)) (k0_pay14 (View.ld x0 r0_0) (View.ld x0 r0_1) (View.ld x0 r0_2) (View.ld x0 r0_3)) (k0_pay15 (View.ld x0 r0_0) (View.ld x0 r0_1) (View.ld x0 r0_2) (View.ld x0 r0_3)) (k0_pay16 (View.ld x0 r0_0) (View.ld x0 r0_1) (View.ld x0 r0_2) (View.ld x0 r0_3)))) x = blk x0 x1 (r0_7.emb x) := by
  rw [plane0_generic, leaf0, leaf1, leaf2, leaf3, leaf4, leaf5, leaf6]
  have h0 : (x 0).val < 1 := (x 0).isLt
  have e0 : (r0_7.emb x) 0 = (0 : Fin 9) := Fin.ext (by show 0 + 1 * (x 0).val = 0; omega)
  have e1 : (r0_7.emb x) 1 = x 1 := Fin.ext (by show 0 + 1 * (x 1).val = (x 1).val; omega)
  have e2 : (r0_7.emb x) 2 = x 2 := Fin.ext (by show 0 + 1 * (x 2).val = (x 2).val; omega)
  unfold blk
  rw [e0, e1, e2]

/-- What the body leaves in the output block is the block function of the two input blocks: its nine stores tile
    the block, and each agrees with the function under its rectangle. -/
theorem out_eq (x0 : Vec Ideal S4x1000x128 .f32) (x1 : Vec Ideal S3x1000x128 .f32) :
    out0_2 (F := Ideal) x0 x1 = blk x0 x1 := by
  funext y
  unfold out0_2
  refine View.canon_apply_of_pieces (Val := Elt Ideal) (e := .f32) (blk x0 x1 : S9x1000x128.Idx → Elt Ideal .f32) _ ?_ y (cover0_2 _ _ _ _ _ _ _ _ _ y)
  intro p hp x
  simp only [List.mem_cons, List.not_mem_nil, or_false] at hp
  rcases hp with rfl | rfl | rfl | rfl | rfl | rfl | rfl | rfl | rfl
  · exact piece8 x0 x1 x
  · exact piece7 x0 x1 x
  · exact piece6 x0 x1 x
  · exact piece5 x0 x1 x
  · exact piece4 x0 x1 x
  · exact piece3 x0 x1 x
  · exact piece2 x0 x1 x
  · exact piece1 x0 x1 x
  · exact piece0 x0 x1 x

end Cert.KSide

end
-- ==== Proof.KernelArray.lean ====
/-
  The kernel's output array after the region: plane p at (M, l) of the nine output planes is plane p of the
  covariance of the quaternion read at (·, M, l) of the staged quaternion planes and the scales read at (·, M, l)
  of the staged scale planes. Grid point t handles rows 1000 t … 1000 t + 999 of every plane, of the inputs and of
  the output alike, and the 32 points' output blocks tile the array.
-/
import proofs.«114946_j41480794145202_2_alg».proof.Proof.Gen.KernelIdeal.Frame
import proofs.«114946_j41480794145202_2_alg».proof.Proof.KernelBlock
import Idealize.ShloMosaic.Lib.Pipeline.Value
import Idealize.ShloMosaic.Lib.ValueIdx

set_option maxRecDepth 16384

noncomputable section

namespace Cert.KSide

open Idealize.ShloMosaic Idealize.ShloMosaic.TcCoe Idealize.ShloMosaic.ValueIdx Idealize.SL.Sem
open Cert.KernelIdeal Cert.KernelIdeal.Gen Cert.Cov
open Idealize.ShloMosaic.Pipeline (Dat)

variable (m : (ℓ : Loc nD τ sig) → Buf (Elt Ideal) ℓ)

/-- The nine output planes as one function of the staged input planes. -/
def planes (a0 : S4x32000x128.Idx → EReal) (a1 : S3x32000x128.Idx → EReal) (i : S9x32000x128.Idx) : EReal :=
  kPlane (a0 (ix3 (n0 := 4) (n1 := 32000) (n2 := 128) 0 (i 1) (i 2))) (a0 (ix3 (n0 := 4) (n1 := 32000) (n2 := 128) 1 (i 1) (i 2)))
    (a0 (ix3 (n0 := 4) (n1 := 32000) (n2 := 128) 2 (i 1) (i 2))) (a0 (ix3 (n0 := 4) (n1 := 32000) (n2 := 128) 3 (i 1) (i 2)))
    (a1 (ix3 (n0 := 3) (n1 := 32000) (n2 := 128) 0 (i 1) (i 2))) (a1 (ix3 (n0 := 3) (n1 := 32000) (n2 := 128) 1 (i 1) (i 2)))
    (a1 (ix3 (n0 := 3) (n1 := 32000) (n2 := 128) 2 (i 1) (i 2))) (i 0)

/-- The three windows' block indices at a grid point: all three take block t along the row axis and block 0
    along the other two. -/
theorem idx_facts : ∀ t : Fin cfg0.N,
    win0_0.index t (0 : Fin 3) = 0 ∧ win0_0.index t (1 : Fin 3) = win0_2.index t (1 : Fin 3) ∧ win0_0.index t (2 : Fin 3) = 0
    ∧ win0_1.index t (0 : Fin 3) = 0 ∧ win0_1.index t (1 : Fin 3) = win0_2.index t (1 : Fin 3) ∧ win0_1.index t (2 : Fin 3) = 0
    ∧ win0_2.index t (0 : Fin 3) = 0 ∧ win0_2.index t (2 : Fin 3) = 0 ∧ win0_2.index t (1 : Fin 3) ≤ 31 :=
  (by decide +kernel : ∀ t : Fin grid0.N, _)

/-- Every row block is some point's. -/
theorem idx_onto : ∀ q : Fin 32, ∃ t : Fin cfg0.N, win0_2.index t = ![0, q.val, 0] :=
  (by decide +kernel : ∀ q : Fin 32, ∃ t : Fin grid0.N, win0_2.index t = ![0, q.val, 0])

/-- Equal arguments give equal planes. -/
theorem kPlane_congr {a0 a0' a1 a1' a2 a2' a3 a3' b0 b0' b1 b1' b2 b2' : EReal} {p p' : Fin 9}
    (h0 : a0 = a0') (h1 : a1 = a1') (h2 : a2 = a2') (h3 : a3 = a3') (g0 : b0 = b0') (g1 : b1 = b1') (g2 : b2 = b2')
    (hp : p = p') : kPlane a0 a1 a2 a3 b0 b1 b2 p = kPlane a0' a1' a2' a3' b0' b1' b2' p' := by
  subst h0 h1 h2 h3 g0 g1 g2 hp; rfl

/-- The block function of the blocks point t reads of two arrays is block t of the planes function of the arrays:
    the three windows move together along the row axis. -/
theorem block_of_planes (t : Fin cfg0.N) (A0 : S4x32000x128.Idx → EReal) (A1 : S3x32000x128.Idx → EReal) (j : S9x1000x128.Idx) :
    blk (fun y => A0 (((cfg0.win 0).blk t).view.emb y)) (fun y => A1 (((cfg0.win 1).blk t).view.emb y)) j
      = planes A0 A1 (((cfg0.win 2).blk t).view.emb j) := by
  obtain ⟨e00, e01, e02, e10, e11, e12, e20, e22, -⟩ := idx_facts t
  have hq : ∀ cq : Fin 4, ((cfg0.win 0).blk t).view.emb (ix3 (n0 := 4) (n1 := 1000) (n2 := 128) cq (j 1) (j 2))
      = ix3 (n0 := 4) (n1 := 32000) (n2 := 128) cq ((((cfg0.win 2).blk t).view.emb j) 1) ((((cfg0.win 2).blk t).view.emb j) 2) := by
    intro cq; funext a; apply Fin.ext
    match a with
    | ⟨0, _⟩ => show win0_0.index t (0 : Fin 3) * 4 + 1 * cq.val = cq.val; omega
    | ⟨1, _⟩ => show win0_0.index t (1 : Fin 3) * 1000 + 1 * (j 1).val = win0_2.index t (1 : Fin 3) * 1000 + 1 * (j 1).val; omega
    | ⟨2, _⟩ => show win0_0.index t (2 : Fin 3) * 128 + 1 * (j 2).val = win0_2.index t (2 : Fin 3) * 128 + 1 * (j 2).val; omega
  have hs : ∀ cs : Fin 3, ((cfg0.win 1).blk t).view.emb (ix3 (n0 := 3) (n1 := 1000) (n2 := 128) cs (j 1) (j 2))
      = ix3 (n0 := 3) (n1 := 32000) (n2 := 128) cs ((((cfg0.win 2).blk t).view.emb j) 1) ((((cfg0.win 2).blk t).view.emb j) 2) := by
    intro cs; funext a; apply Fin.ext
    match a with
    | ⟨0, _⟩ => show win0_1.index t (0 : Fin 3) * 3 + 1 * cs.val = cs.val; omega
    | ⟨1, _⟩ => show win0_1.index t (1 : Fin 3) * 1000 + 1 * (j 1).val = win0_2.index t (1 : Fin 3) * 1000 + 1 * (j 1).val; omega
    | ⟨2, _⟩ => show win0_1.index t (2 : Fin 3) * 128 + 1 * (j 2).val = win0_2.index t (2 : Fin 3) * 128 + 1 * (j 2).val; omega
  have hp : (((cfg0.win 2).blk t).view.emb j) 0 = j 0 := by
    apply Fin.ext
    show win0_2.index t (0 : Fin 3) * 9 + 1 * (j 0).val = (j 0).val; omega
  show kPlane (A0 (((cfg0.win 0).blk t).view.emb (ix3 (n0 := 4) (n1 := 1000) (n2 := 128) 0 (j 1) (j 2))))
      (A0 (((cfg0.win 0).blk t).view.emb (ix3 (n0 := 4) (n1 := 1000) (n2 := 128) 1 (j 1) (j 2))))
      (A0 (((cfg0.win 0).blk t).view.emb (ix3 (n0 := 4) (n1 := 1000) (n2 := 128) 2 (j 1) (j 2))))
      (A0 (((cfg0.win 0).blk t).view.emb (ix3 (n0 := 4) (n1 := 1000) (n2 := 128) 3 (j 1) (j 2))))
      (A1 (((cfg0.win 1).blk t).view.emb (ix3 (n0 := 3) (n1 := 1000) (n2 := 128) 0 (j 1) (j 2))))
      (A1 (((cfg0.win 1).blk t).view.emb (ix3 (n0 := 3) (n1 := 1000) (n2 := 128) 1 (j 1) (j 2))))
      (A1 (((cfg0.win 1).blk t).view.emb (ix3 (n0 := 3) (n1 := 1000) (n2 := 128) 2 (j 1) (j 2)))) (j 0)
    = kPlane (A0 (ix3 (n0 := 4) (n1 := 32000) (n2 := 128) 0 ((((cfg0.win 2).blk t).view.emb j) 1) ((((cfg0.win 2).blk t).view.emb j) 2)))
      (A0 (ix3 (n0 := 4) (n1 := 32000) (n2 := 128) 1 ((((cfg0.win 2).blk t).view.emb j) 1) ((((cfg0.win 2).blk t).view.emb j) 2)))
      (A0 (ix3 (n0 := 4) (n1 := 32000) (n2 := 128) 2 ((((cfg0.win 2).blk t).view.emb j) 1) ((((cfg0.win 2).blk t).view.emb j) 2)))
      (A0 (ix3 (n0 := 4) (n1 := 32000) (n2 := 128) 3 ((((cfg0.win 2).blk t).view.emb j) 1) ((((cfg0.win 2).blk t).view.emb j) 2)))
      (A1 (ix3 (n0 := 3) (n1 := 32000) (n2 := 128) 0 ((((cfg0.win 2).blk t).view.emb j) 1) ((((cfg0.win 2).blk t).view.emb j) 2)))
      (A1 (ix3 (n0 := 3) (n1 := 32000) (n2 := 128) 1 ((((cfg0.win 2).blk t).view.emb j) 1) ((((cfg0.win 2).blk t).view.emb j) 2)))
      (A1 (ix3 (n0 := 3) (n1 := 32000) (n2 := 128) 2 ((((cfg0.win 2).blk t).view.emb j) 1) ((((cfg0.win 2).blk t).view.emb j) 2)))
      ((((cfg0.win 2).blk t).view.emb j) 0)
  exact kPlane_congr (congrArg A0 (hq 0)) (congrArg A0 (hq 1)) (congrArg A0 (hq 2)) (congrArg A0 (hq 3))
    (congrArg A1 (hs 0)) (congrArg A1 (hs 1)) (congrArg A1 (hs 2)) hp.symm

/-- Reading an array through an input window's block is composing with the block's embedding. -/
theorem read_win0 (t : Fin cfg0.N) (f : S4x32000x128.Idx → EReal) (y : S4x1000x128.Idx) :
    ((cfg0.win 0).blk t).view.read (Elt Ideal) f y = f (((cfg0.win 0).blk t).view.emb y) := rfl

theorem read_win1 (t : Fin cfg0.N) (f : S3x32000x128.Idx → EReal) (y : S3x1000x128.Idx) :
    ((cfg0.win 1).blk t).view.read (Elt Ideal) f y = f (((cfg0.win 1).blk t).view.emb y) := rfl

/-- An input window's block at a point is its array read through the block's rectangle. -/
theorem iblk0_eq (c : Dev nD) (t : Fin cfg0.N) :
    (iblk m c 0 t : Vec Ideal S4x1000x128 .f32)
      = fun y => (V m c (Pipeline.arrRef spec0 0) : S4x32000x128.Idx → EReal) (((cfg0.win 0).blk t).view.emb y) := by
  funext y
  unfold iblk
  exact read_win0 t _ y

theorem iblk1_eq (c : Dev nD) (t : Fin cfg0.N) :
    (iblk m c 1 t : Vec Ideal S3x1000x128 .f32)
      = fun y => (V m c (Pipeline.arrRef spec0 1) : S3x32000x128.Idx → EReal) (((cfg0.win 1).blk t).view.emb y) := by
  funext y
  unfold iblk
  exact read_win1 t _ y

/-- What point t writes back is block t of the planes function of the staged arrays. -/
theorem flushed_eq (c : Dev nD) (t : Fin cfg0.N) :
    (dats m 0 c).flushed 2 t = ((cfg0.win 2).blk t).view.read (Elt Ideal)
      (planes (V m c (Pipeline.arrRef spec0 0)) (V m c (Pipeline.arrRef spec0 1))) := by
  have e : (dats m 0 c).after 2 t = blk (iblk m c 0 t) (iblk m c 1 t) := (after0_2 m c t).trans (out_eq _ _)
  show (cfg0.win 2).cut (grid0.coords t) ((dats m 0 c).after 2 t) = _
  rw [e]
  funext j
  show blk (iblk m c 0 t) (iblk m c 1 t) j
    = planes (V m c (Pipeline.arrRef spec0 0)) (V m c (Pipeline.arrRef spec0 1)) (((cfg0.win 2).blk t).view.emb j)
  exact (congrArg₂ (fun a b => blk a b j) (iblk0_eq m c t) (iblk1_eq m c t)).trans (block_of_planes t _ _ j)

/-- An index of the output array is in point t's block iff each coordinate is in the block's range on its axis. -/
theorem mem_blk (t : Fin cfg0.N) (i : S9x32000x128.Idx) :
    i ∈ ((cfg0.win 2).blk t).view.set ↔ ∀ a : Fin 3, win0_2.index t a * S9x1000x128.size a ≤ (i a).val ∧ (i a).val < win0_2.index t a * S9x1000x128.size a + S9x1000x128.size a := by
  show i ∈ ((View.whole main_v11).slice (win0_2.rect t)).set ↔ _
  rw [View.set_slice_whole, Rect.mem_set_unit]
  exact Iff.rfl

/-- Every index of the output array is in some flushing point's block: the point that holds row M is M / 1000. -/
theorem cover (i : S9x32000x128.Idx) :
    ∃ t : Fin cfg0.N, (cfg0.win 2).flush t = true ∧ i ∈ ((cfg0.win 2).blk t).view.set := by
  have hi0 : (i 0).val < 9 := (i 0).isLt
  have hi1 : (i 1).val < 32000 := (i 1).isLt
  have hi2 : (i 2).val < 128 := (i 2).isLt
  obtain ⟨t, ht⟩ := idx_onto ⟨(i 1).val / 1000, by omega⟩
  have q0 : win0_2.index t (0 : Fin 3) = 0 := congrFun ht 0
  have q1 : win0_2.index t (1 : Fin 3) = (i 1).val / 1000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 9 ≤ (i 0).val ∧ (i 0).val < win0_2.index t (0 : Fin 3) * 9 + 9; omega
  | ⟨1, _⟩ => show win0_2.index t (1 : Fin 3) * 1000 ≤ (i 1).val ∧ (i 1).val < win0_2.index t (1 : Fin 3) * 1000 + 1000; omega
  | ⟨2, _⟩ => show win0_2.index t (2 : Fin 3) * 128 ≤ (i 2).val ∧ (i 2).val < win0_2.index t (2 : Fin 3) * 128 + 128; omega

/-- The output array after the run is the planes function of the staged arrays. -/
theorem final (c : Dev nD) :
    (dats m 0 c).arrAt 2 cfg0.N = planes (V m c (Pipeline.arrRef spec0 0)) (V m c (Pipeline.arrRef spec0 1)) :=
  (dats m 0 c).arrAt_eq_of_cover 2 _ (fun t _ => flushed_eq m c t) cover

end Cert.KSide

end
-- ==== Proof.LibScatterMiss.lean ====
/-
  A general fact about `Host.scatter`: an operand index that no update index lands on keeps the
  operand's element.  Also: where an update index lands, read off `ScatterDims.resultIdx?`.
-/
import Idealize.ShloMosaic.PureOps.ShapeOps

namespace Cert.Lib

open Idealize.ShloMosaic

/-- Where update index `j` lands (`resultIdx? = some i0`), each coordinate of the landing index is
    the start index's component plus the window coordinate on that axis. -/
theorem ScatterDims.resultIdx?_eq_some_val {s si u : Shape} {w : Nat} (d : ScatterDims s si u)
    (j : u.Idx) (idx : IVec si w) (i0 : s.Idx) (h : d.resultIdx? j idx = some i0) (a : Fin s.rank) :
    ((i0 a).val : Int) = d.start j idx a + d.window j a := by
  unfold ScatterDims.resultIdx? at h
  split at h
  · next hin =>
    have h' := Option.some.inj h
    subst h'
    exact Int.toNat_of_nonneg (hin a).1
  · exact absurd h (by simp)

/-- `Host.scatter` is a left fold over the update indices, each step replacing the element at the
    index its update lands on (if it lands inside the operand).  If NO update index lands on `i`,
    the fold never touches `i`: the result at `i` is the operand's element.  (Invariant of the
    fold: the running array agrees with the operand at `i`.) -/
theorem Host.scatter_apply_of_miss {s si u : Shape} {α : Type} {w : Nat} (d : ScatterDims s si u)
    (f : α → α → α) (x : s.Idx → α) (idx : IVec si w) (upd : u.Idx → α) (i : s.Idx)
    (hmiss : ∀ j : u.Idx, d.resultIdx? j idx ≠ some i) :
    Host.scatter d f x idx upd i = x i := by
  unfold Host.scatter
  suffices H : ∀ (l : List (Fin u.numel)) (r : s.Idx → α), r i = x i →
      (l.foldl (fun r n =>
        match d.resultIdx? (u.rowMajor.symm n) idx with
        | some i0 => fun i' => if i' = i0 then f (r i0) (upd (u.rowMajor.symm n)) else r i'
        | none => r) r) i = x i from H _ x rfl
  intro l
  induction l with
  | nil => intro r hr; exact hr
  | cons n l ih =>
    intro r hr
    rw [List.foldl_cons]
    apply ih
    cases h0 : d.resultIdx? (u.rowMajor.symm n) idx with
    | none => exact hr
    | some i0 =>
      have hne : i ≠ i0 := fun e => hmiss _ (e ▸ h0)
      show (if i = i0 then f (r i0) (upd (u.rowMajor.symm n)) else r i) = x i
      rw [if_neg hne]; exact hr

/-- A sufficient condition for a miss, axis by axis: if on some axis `a` the coordinate of `i`
    differs from start plus window for every update index, no update lands on `i`. -/
theorem Host.scatter_apply_of_axis_miss {s si u : Shape} {α : Type} {w : Nat} (d : ScatterDims s si u)
    (f : α → α → α) (x : s.Idx → α) (idx : IVec si w) (upd : u.Idx → α) (i : s.Idx)
    (hmiss : ∀ j : u.Idx, ∃ a : Fin s.rank, ((i a).val : Int) ≠ d.start j idx a + d.window j a) :
    Host.scatter d f x idx upd i = x i := by
  apply Host.scatter_apply_of_miss
  intro j hj
  obtain ⟨a, ha⟩ := hmiss j
  exact ha (ScatterDims.resultIdx?_eq_some_val d j idx i hj a)

end Cert.Lib
-- ==== Proof.Prelude.lean ====
/-
  The two arrays the region's input windows stage, read at an index: the host operations before the region pad the
  inputs below to 4096000 rows, overwrite (for the quaternions) column 0 of the padded rows, transpose and cast to
  planes `[C, 32000, 128]`.  At an index of an unpadded row (`M · 128 + l < 4000000`) each plane holds the input's own
  element: the casts keep the row-major position, the scatter writes rows `4000000 …` only, and the padding is below.
-/
import proofs.«114946_j41480794145202_2_alg».proof.Proof.Gen.KernelIdeal.Frame
import proofs.«114946_j41480794145202_2_alg».proof.Proof.LibScatterMiss
import Idealize.ShloMosaic.Lib.StableHlo.Run
import Idealize.ShloMosaic.Lib.ValueIdx
import Idealize.ShloMosaic.Lib.ValueLayout
import Idealize.ShloMosaic.Lib.KernelVsHost
import Idealize.ShloMosaic.PureOps.Ideal

set_option maxRecDepth 16384

noncomputable section

namespace Cert.HostSide

open Idealize.ShloMosaic Idealize.ShloMosaic.TcCoe Idealize.SL.Sem
open Idealize.ShloMosaic.StableHlo Idealize.ShloMosaic.ValueIdx
open Cert.KernelIdeal Cert.KernelIdeal.Gen

section Pure
variable {α : Type}

/-- A `[R, C]` matrix transposed to `[C, R]` and then cast to `[C, 32000, 128]` (`R = 32000 · 128`) reads, at
    `(cc, M, l)`, the matrix at row `M · 128 + l`, column `cc`: both casts keep the row-major position
    `cc · 4096000 + M · 128 + l`. -/
theorem planes_apply {C : Nat} (y : (⟨2, ![4096000, C]⟩ : Shape).Idx → α)
    (hT : (⟨2, ![4096000, C]⟩ : Shape).Transposes [1, 0] ⟨2, ![C, 4096000]⟩)
    (hS : (⟨2, ![C, 4096000]⟩ : Shape).ShapeCasts ⟨3, ![C, 32000, 128]⟩)
    (cc : Fin C) (M : Fin 32000) (l : Fin 128) (hr : M.val * 128 + l.val < 4096000) :
    shapeCast ⟨3, ![C, 32000, 128]⟩ (transpose ⟨2, ![C, 4096000]⟩ [1, 0] y hT) hS (ix3 cc M l)
      = y (ix2 ⟨M.val * 128 + l.val, hr⟩ cc) := by
  rw [shapeCast_apply _ hS (ix3 cc M l) (ix2 cc ⟨M.val * 128 + l.val, hr⟩) ?_]
  · exact transpose_ix2_apply y hT cc ⟨M.val * 128 + l.val, hr⟩
  · rw [Shape.rowMajor_val_two, Shape.rowMajor_val_three]
    show cc.val * 4096000 + (M.val * 128 + l.val) = (cc.val * 32000 + M.val) * 128 + l.val
    omega

/-- A matrix padded below by 96000 rows (nothing above, nothing between, no column padding) reads, at a row
    `n < 4000000`, the matrix itself. -/
theorem pad_rows_apply {C : Nat} (x : (⟨2, ![4000000, C]⟩ : Shape).Idx → α) {u : Shape} (v : u.Idx → α)
    (hp : (⟨2, ![4000000, C]⟩ : Shape).Pads ![0, 0] ![96000, 0] ![0, 0] ⟨2, ![4096000, C]⟩) (hu : 0 < u.numel)
    (n : Nat) (h : n < 4000000) (h' : n < 4096000) (cc : Fin C) :
    pad ⟨2, ![4096000, C]⟩ ![0, 0] ![96000, 0] ![0, 0] x v hp hu (ix2 ⟨n, h'⟩ cc) = x (ix2 ⟨n, h⟩ cc) := by
  refine pad_apply_of_inside _ _ _ x v hp hu _ (ix2 ⟨n, h⟩ cc) fun a => ?_
  match a with
  | ⟨0, _⟩ => show n = 0 + n * (0 + 1); omega
  | ⟨1, _⟩ => show cc.val = 0 + cc.val * (0 + 1); omega

end Pure

section Scatter
variable {α : Type}

/-- The scatter's start row: its index vector's component `0`, here the literal `4000000`. -/
theorem scatter_start_row (j : S96000.Idx) (idx : IVec S2 32)
    (hidx : ∀ k : S2.Idx, (k 0).val = 0 → idx k = 4000000#32) :
    scatter_S4096000x4_S2_S96000_0_1_01_0.start j idx (0 : Fin 2) = 4000000 := by
  unfold ScatterDims.start
  have hmem : (0 : Fin 2) ∈ scatter_S4096000x4_S2_S96000_0_1_01_0.scatterDimsToOperandDims := by
    show (0 : Fin 2) ∈ [0, 1]
    decide
  rw [dif_pos hmem, hidx _ ?_]
  · decide
  · unfold ScatterDims.siIdx
    rw [dif_pos (show ((0 : Fin S2.rank).val = scatter_S4096000x4_S2_S96000_0_1_01_0.indexVectorDim) from rfl)]
    show List.idxOf (0 : Fin 2) [0, 1] = 0
    decide

/-- The scatter writes rows `4000000 …` only (its one start index is row `4000000`, column `0`, and a window
    coordinate is not negative): an index in a row below `4000000` keeps the operand's element. -/
theorem scatter_apply_of_row_lt (f : α → α → α) (x : S4096000x4.Idx → α) (idx : IVec S2 32)
    (hidx : ∀ k : S2.Idx, (k 0).val = 0 → idx k = 4000000#32) (upd : S96000.Idx → α)
    (i : S4096000x4.Idx) (hi : (i 0).val < 4000000) :
    Host.scatter scatter_S4096000x4_S2_S96000_0_1_01_0 f x idx upd i = x i := by
  refine Cert.Lib.Host.scatter_apply_of_axis_miss _ f x idx upd i fun j => ⟨(0 : Fin 2), ?_⟩
  rw [scatter_start_row j idx hidx]
  omega

/-- The scatter's index vector `[4000000, 0]`, read at component `0`. -/
theorem scatter_index_zero (h : Shape.Concatenates [S1, S1] S2 0) (hb : S_.BroadcastsInDim S1 ![]) (k : S2.Idx) (hk : (k 0).val = 0) :
    (concatenate S2 0 [⟨S1, broadcastInDim S1 ![] hb (constantI S_ 32 4000000#32)⟩,
        ⟨S1, broadcastInDim S1 ![] hb (constantI S_ 32 0#32)⟩] h : IVec S2 32) k = 4000000#32 := by
  rw [concatenate_pair_apply_left (s₁ := S1) (s₂ := S1) (0 : Fin 1) _ _ h k (rfl : S1.rank = S2.rank) (ix1 0) ?_]
  · rfl
  · intro b
    match b with
    | ⟨0, _⟩ => exact hk.symm

end Scatter

section Arrays

variable (m : (ℓ : Loc nD τ sig) → Buf (Elt Ideal) ℓ)

/-- What the region finds in `main_v8`: the host operations before it, composed — the quaternions padded to
    4096000 rows, the padded rows' column `0` overwritten by the scatter, transposed and cast to planes. -/
theorem v8_eq (c : Dev nD) :
    (Gen.V (F := Ideal) m c main_v8 : S4x32000x128.Idx → EReal)
      = shapeCast S4x32000x128
          (transpose S4x4096000 [1, 0]
            (Host.scatter scatter_S4096000x4_S2_S96000_0_1_01_0 (fun _ b => b)
              (pad S4096000x4 ![0, 0] ![96000, 0] ![0, 0]
                (m ((c : Thread nD τ).loc main_arg0) : S4000000x4.Idx → EReal)
                (sitofp (F := Ideal) .f32 (constantI S_ 32 0#32)) pads_S4000000x4_S4096000x4_0960000_000 h_S_)
              (concatenate S2 0
                [⟨S1, broadcastInDim S1 ![] bcast_S_S1 (constantI S_ 32 4000000#32)⟩,
                  ⟨S1, broadcastInDim S1 ![] bcast_S_S1 (constantI S_ 32 0#32)⟩]
                concatenates_S1_S1_S2_d0)
              (broadcastInDim S96000 ![] bcast_S_S96000 (constant (F := Ideal) S_ .f32 0x3F800000#32)))
            transposes_S4096000x4_S4x4096000_1_0)
          shapeCasts_S4x4096000_S4x32000x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- What the region finds in `main_v10`: the scales padded to 4096000 rows, transposed and cast to planes. -/
theorem v10_eq (c : Dev nD) :
    (Gen.V (F := Ideal) m c main_v10 : S3x32000x128.Idx → EReal)
      = shapeCast S3x32000x128
          (transpose S3x4096000 [1, 0]
            (pad S4096000x3 ![0, 0] ![96000, 0] ![0, 0]
              (m ((c : Thread nD τ).loc main_arg1) : S4000000x3.Idx → EReal)
              (sitofp (F := Ideal) .f32 (constantI S_ 32 0#32)) pads_S4000000x3_S4096000x3_0960000_000 h_S_)
            transposes_S4096000x3_S3x4096000_1_0)
          shapeCasts_S3x4096000_S3x32000x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The quaternion planes the region stages, read at an index of an unpadded row: plane `cc`, sublane row `M`,
    lane `l` hold component `cc` of quaternion `M · 128 + l`. -/
theorem v8_apply (c : Dev nD) (cc : Fin 4) (M : Fin 32000) (l : Fin 128) (h : M.val * 128 + l.val < 4000000) :
    (Gen.V (F := Ideal) m c main_v8 : S4x32000x128.Idx → EReal) (ix3 cc M l)
      = (m ((c : Thread nD τ).loc main_arg0) : S4000000x4.Idx → EReal) (ix2 ⟨M.val * 128 + l.val, h⟩ cc) := by
  have h' : M.val * 128 + l.val < 4096000 := by omega
  rw [v8_eq m c, planes_apply _ _ _ cc M l h',
    scatter_apply_of_row_lt _ _ _ (scatter_index_zero _ _) _ _ (show M.val * 128 + l.val < 4000000 from h),
    pad_rows_apply _ _ _ _ _ h h' cc]

/-- The scale planes the region stages, read at an index of an unpadded row: plane `cc`, sublane row `M`, lane `l`
    hold component `cc` of scale `M · 128 + l`. -/
theorem v10_apply (c : Dev nD) (cc : Fin 3) (M : Fin 32000) (l : Fin 128) (h : M.val * 128 + l.val < 4000000) :
    (Gen.V (F := Ideal) m c main_v10 : S3x32000x128.Idx → EReal) (ix3 cc M l)
      = (m ((c : Thread nD τ).loc main_arg1) : S4000000x3.Idx → EReal) (ix2 ⟨M.val * 128 + l.val, h⟩ cc) := by
  have h' : M.val * 128 + l.val < 4096000 := by omega
  rw [v10_eq m c, planes_apply _ _ _ cc M l h', pad_rows_apply _ _ _ _ _ h h' cc]

end Arrays

end Cert.HostSide

end
-- ==== Proof.KernelTail.lean ====
/-
  The host operations after the region, read at an index: the nine output planes `[9, 32000, 128]` are cast to
  `[9, 4096000]`, transposed, cut to the first 4000000 rows and cast to `[4000000, 3, 3]`.  Entry `(n, i, k)` of the
  result is plane `3 i + k` at sublane row `n / 128`, lane `n % 128`, whatever the planes hold.
-/
import proofs.«114946_j41480794145202_2_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal

set_option maxRecDepth 16384

noncomputable section

namespace Cert.HostSide

open Idealize.ShloMosaic Idealize.ShloMosaic.TcCoe Idealize.SL.Sem
open Idealize.ShloMosaic.StableHlo Idealize.ShloMosaic.ValueIdx
open Cert.KernelIdeal Cert.KernelIdeal.Gen

section TailPure
variable {α : Type}

/-- The nine planes `[9, 32000, 128]` cast to `[9, 4096000]`, transposed to `[4096000, 9]`, cut to the first 4000000
    rows and cast to `[4000000, 3, 3]` read, at `(n, i, k)`, plane `3 i + k` at sublane row `n / 128`, lane `n % 128`:
    the last cast keeps the row-major position `n · 9 + 3 i + k`, the slice starts at row 0, the transpose swaps the
    two coordinates, and the first cast keeps the position `(3 i + k) · 4096000 + n`. -/
theorem tail_pure (A : S9x32000x128.Idx → α) (h1 : S9x32000x128.ShapeCasts S9x4096000)
    (h2 : S9x4096000.Transposes [1, 0] S4096000x9) (h3 : S4096000x9.Slices ![0, 0] S4000000x9)
    (h4 : S4000000x9.ShapeCasts S4000000x3x3) (n : Fin 4000000) (i k : Fin 3) :
    shapeCast S4000000x3x3
        (extractStridedSlice S4000000x9 ![0, 0] (transpose S4096000x9 [1, 0] (shapeCast S9x4096000 A h1) h2) h3) h4
        (ix3 n i k)
      = A (ix3 (n0 := 9) (n1 := 32000) (n2 := 128) ⟨3 * i.val + k.val, by omega⟩ ⟨n.val / 128, by omega⟩
          ⟨n.val % 128, by omega⟩) := by
  have hik : 3 * i.val + k.val < 9 := by omega
  have hn : n.val < 4096000 := by omega
  refine (shapeCast_apply _ h4 (ix3 n i k) (ix2 n ⟨3 * i.val + k.val, hik⟩) ?_).trans ?_
  · rw [Shape.rowMajor_val_two, Shape.rowMajor_val_three]
    show n.val * 9 + (3 * i.val + k.val) = (n.val * 3 + i.val) * 3 + k.val
    omega
  refine (extractStridedSlice_apply _ _ h3 _ (ix2 ⟨n.val, hn⟩ ⟨3 * i.val + k.val, hik⟩) ?_).trans ?_
  · intro a
    match a with
    | ⟨0, _⟩ => show n.val = 0 + n.val; omega
    | ⟨1, _⟩ => show 3 * i.val + k.val = 0 + (3 * i.val + k.val); omega
  refine (transpose_ix2_apply _ h2 ⟨n.val, hn⟩ ⟨3 * i.val + k.val, hik⟩).trans ?_
  refine shapeCast_apply _ h1 _ _ ?_
  rw [Shape.rowMajor_val_two, Shape.rowMajor_val_three]
  show ((3 * i.val + k.val) * 32000 + n.val / 128) * 128 + n.val % 128 = (3 * i.val + k.val) * 4096000 + n.val
  omega

end TailPure

section Tail

variable (m : (ℓ : Loc nD τ sig) → Buf (Elt Ideal) ℓ)

/-- The result buffer after the host operations that follow the region, as those operations composed over what the
    region left in its output array. -/
theorem tail_eq (c : Dev nD) (G : S9x32000x128.Idx → EReal) (hG : (dats (F := Ideal) m 0 c).arrAt 2 cfg0.N = G) :
    (Pipeline.afterTail₀ cfgs (dats (F := Ideal) m) 0 (V0 m) [hostOps1] c main_v15 : S4000000x3x3.Idx → EReal)
      = shapeCast S4000000x3x3
          (extractStridedSlice S4000000x9 ![0, 0]
            (transpose S4096000x9 [1, 0] (shapeCast S9x4096000 G shapeCasts_S9x32000x128_S9x4096000)
              transposes_S9x4096000_S4096000x9_1_0)
            slices_S4096000x9_S4000000x9_0_0)
          shapeCasts_S4000000x9_S4000000x3x3 := by
  unfold Pipeline.afterTail₀
  show StableHlo.after hostOps1 _ (Proc.devRef .tc main_v15) = _
  after_results
  have hw : (Pipeline.withArrays (cfgs 0).spec c (V0 m c) (fun w => (dats (F := Ideal) m 0 c).arrAt w (cfgs 0).N)
      (Proc.devRef .tc main_v11) : S9x32000x128.Idx → EReal) = G :=
    (Pipeline.withArrays_arr spec0 launch0.win.arr_inj c _ _ 2).trans hG
  rw [hw]
  rfl

/-- The result buffer read at `(n, i, k)`: plane `3 i + k` of the region's output array at sublane row `n / 128`,
    lane `n % 128`. -/
theorem tail_apply (c : Dev nD) (G : S9x32000x128.Idx → EReal) (hG : (dats (F := Ideal) m 0 c).arrAt 2 cfg0.N = G)
    (n : Fin 4000000) (i k : Fin 3) :
    (Pipeline.afterTail₀ cfgs (dats (F := Ideal) m) 0 (V0 m) [hostOps1] c main_v15 : S4000000x3x3.Idx → EReal) (ix3 n i k)
      = G (ix3 (n0 := 9) (n1 := 32000) (n2 := 128) ⟨3 * i.val + k.val, by omega⟩ ⟨n.val / 128, by omega⟩
          ⟨n.val % 128, by omega⟩) := by
  rw [tail_eq m c G hG]
  exact tail_pure G _ _ _ _ n i k

end Tail

end Cert.HostSide

end
-- ==== Proof.KernelValue.lean ====
/-
  The kernel's result, element by element, from the argument arrays. Entry (n, i, k) of the result is read, through
  the reshapes, the transpose and the slice after the region, from plane 3i + k of the region's output at row
  n / 128 and lane n % 128; the staged input planes at that row and lane hold, through the padding, the transpose
  and the reshape before the region, row n of the two argument arrays (n is below the 4,000,000 rows that are not
  padding, so the rows the padding rewrites are never read).
-/
import proofs.«114946_j41480794145202_2_alg».proof.Proof.Gen.KernelIdeal.Frame
import proofs.«114946_j41480794145202_2_alg».proof.Proof.KernelArray
import proofs.«114946_j41480794145202_2_alg».proof.Proof.Prelude
import proofs.«114946_j41480794145202_2_alg».proof.Proof.KernelTail

set_option maxRecDepth 16384

noncomputable section

namespace Cert.KSide

open Idealize.ShloMosaic Idealize.ShloMosaic.TcCoe Idealize.ShloMosaic.ValueIdx Idealize.SL.Sem
open Cert.KernelIdeal Cert.KernelIdeal.Gen Cert.Cov

variable (m : (ℓ : Loc nD τ sig) → Buf (Elt Ideal) ℓ)

/-- The staged quaternion planes at row n / 128, lane n % 128 hold row n of the quaternion argument. -/
theorem q_row (c : Dev nD) (n : Fin 4000000) (cc : Fin 4) :
    (V m c (Pipeline.arrRef spec0 0) : S4x32000x128.Idx → EReal)
        (ix3 (n0 := 4) (n1 := 32000) (n2 := 128) cc ⟨n.val / 128, by omega⟩ ⟨n.val % 128, by omega⟩)
      = (m ((c : Thread nD τ).loc main_arg0) : S4000000x4.Idx → EReal) (ix2 n cc) := by
  have h : n.val / 128 * 128 + n.val % 128 < 4000000 := by omega
  refine (Cert.HostSide.v8_apply m c cc ⟨n.val / 128, by omega⟩ ⟨n.val % 128, by omega⟩ h).trans ?_
  exact congrArg (fun r : Fin 4000000 => (m ((c : Thread nD τ).loc main_arg0) : S4000000x4.Idx → EReal) (ix2 r cc))
    (Fin.ext (by show n.val / 128 * 128 + n.val % 128 = n.val; omega))

/-- The staged scale planes at row n / 128, lane n % 128 hold row n of the scale argument. -/
theorem s_row (c : Dev nD) (n : Fin 4000000) (cc : Fin 3) :
    (V m c (Pipeline.arrRef spec0 1) : S3x32000x128.Idx → EReal)
        (ix3 (n0 := 3) (n1 := 32000) (n2 := 128) cc ⟨n.val / 128, by omega⟩ ⟨n.val % 128, by omega⟩)
      = (m ((c : Thread nD τ).loc main_arg1) : S4000000x3.Idx → EReal) (ix2 n cc) := by
  have h : n.val / 128 * 128 + n.val % 128 < 4000000 := by omega
  refine (Cert.HostSide.v10_apply m c cc ⟨n.val / 128, by omega⟩ ⟨n.val % 128, by omega⟩ h).trans ?_
  exact congrArg (fun r : Fin 4000000 => (m ((c : Thread nD τ).loc main_arg1) : S4000000x3.Idx → EReal) (ix2 r cc))
    (Fin.ext (by show n.val / 128 * 128 + n.val % 128 = n.val; omega))

/-- The kernel's result at (n, i, k): plane 3i + k of the covariance of row n of the arguments. -/
theorem result_apply (c : Dev nD) (n : Fin 4000000) (i k : Fin 3) :
    (Pipeline.afterTail₀ cfgs (dats (F := Ideal) m) 0 (V0 m) [hostOps1] c main_v15 : S4000000x3x3.Idx → EReal) (ix3 n i k)
      = kPlane ((m ((c : Thread nD τ).loc main_arg0) : S4000000x4.Idx → EReal) (ix2 n 0))
          ((m ((c : Thread nD τ).loc main_arg0) : S4000000x4.Idx → EReal) (ix2 n 1))
          ((m ((c : Thread nD τ).loc main_arg0) : S4000000x4.Idx → EReal) (ix2 n 2))
          ((m ((c : Thread nD τ).loc main_arg0) : S4000000x4.Idx → EReal) (ix2 n 3))
          ((m ((c : Thread nD τ).loc main_arg1) : S4000000x3.Idx → EReal) (ix2 n 0))
          ((m ((c : Thread nD τ).loc main_arg1) : S4000000x3.Idx → EReal) (ix2 n 1))
          ((m ((c : Thread nD τ).loc main_arg1) : S4000000x3.Idx → EReal) (ix2 n 2))
          ⟨3 * i.val + k.val, by omega⟩ := by
  rw [Cert.HostSide.tail_apply m c _ (final m c) n i k]
  exact kPlane_congr (q_row m c n 0) (q_row m c n 1) (q_row m c n 2) (q_row m c n 3)
    (s_row m c n 0) (s_row m c n 1) (s_row m c n 2) rfl

end Cert.KSide

end
-- ==== Proof.RefValue.lean ====
/-
  The reference program read at an index.

  For a row n of the quaternion array (w, x, y, z) = (q[n,0], q[n,1], q[n,2], q[n,3]) and of the scale array
  (a, b, c) = (s[n,0], s[n,1], s[n,2]), the reference computes, over the extended reals with exact operations:

    nrm        = sqrt (0 + (((w*w + x*x) + y*y) + z*z))          (the sum over the four components, in index order,
                                                                   added to the reduction's initial value)
    W, X, Y, Z = w / nrm, x / nrm, y / nrm, z / nrm
    R          = the 3x3 rotation matrix of the unit quaternion (W, X, Y, Z), entry by entry as the program writes it
    sc v       = max v (-v) + eps                                  (absolute value plus a small constant)
    RS i j     = R i j * sc (a, b, c)_j
    out i k    = sum over j of RS i j * RS k j                      (RS RS^T)

  The sum over the four components is written out in index order, ((w*w + x*x) + y*y) + z*z; the sum over j in
  out is kept as a sum over Fin 3 (refOut), and refOut_expand writes it out in index order.

  Float literals stay as the opaque words they are printed with: 1.0 = 0x3F800000, 2.0 = 0x40000000,
  eps = 0x322BCC77, and the reduction's initial value 0x00000000.
-/
import proofs.«114946_j41480794145202_2_alg».proof.Proof.Gen.ReferenceIdeal.Read

open scoped BigOperators

noncomputable section

namespace Cert.RefSide

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## The specification, as scalar functions over the extended reals -/

/-- The squared norm: the reduction's initial value plus the four squares summed in index order. -/
def nrm2 (w x y z : EReal) : EReal :=
  Ideal.ofBits .f32 0x00000000#32 + (w * w + x * x + y * y + z * z)

/-- The norm. -/
def nrm (w x y z : EReal) : EReal := Ideal.sqrt (nrm2 w x y z)

/-- A component divided by the norm. -/
def unit (w x y z v : EReal) : EReal := Ideal.div v (nrm w x y z)

/-! The nine entries of the rotation matrix of a quaternion (W, X, Y, Z), in the program's operand order:
    one minus twice a sum of two squares on the diagonal, twice a sum or difference of two products off it. -/
def r00 (W X Y Z : EReal) : EReal := Ideal.ofBits .f32 0x3F800000#32 - Ideal.ofBits .f32 0x40000000#32 * (Y * Y + Z * Z)
def r01 (W X Y Z : EReal) : EReal := Ideal.ofBits .f32 0x40000000#32 * (X * Y - W * Z)
def r02 (W X Y Z : EReal) : EReal := Ideal.ofBits .f32 0x40000000#32 * (X * Z + W * Y)
def r10 (W X Y Z : EReal) : EReal := Ideal.ofBits .f32 0x40000000#32 * (X * Y + W * Z)
def r11 (W X Y Z : EReal) : EReal := Ideal.ofBits .f32 0x3F800000#32 - Ideal.ofBits .f32 0x40000000#32 * (X * X + Z * Z)
def r12 (W X Y Z : EReal) : EReal := Ideal.ofBits .f32 0x40000000#32 * (Y * Z - W * X)
def r20 (W X Y Z : EReal) : EReal := Ideal.ofBits .f32 0x40000000#32 * (X * Z - W * Y)
def r21 (W X Y Z : EReal) : EReal := Ideal.ofBits .f32 0x40000000#32 * (Y * Z + W * X)
def r22 (W X Y Z : EReal) : EReal := Ideal.ofBits .f32 0x3F800000#32 - Ideal.ofBits .f32 0x40000000#32 * (X * X + Y * Y)

/-- The rotation matrix of the quaternion (W, X, Y, Z). -/
def rot (W X Y Z : EReal) : Fin 3 → Fin 3 → EReal
  | ⟨0, _⟩, ⟨0, _⟩ => r00 W X Y Z
  | ⟨0, _⟩, ⟨1, _⟩ => r01 W X Y Z
  | ⟨0, _⟩, ⟨2, _⟩ => r02 W X Y Z
  | ⟨1, _⟩, ⟨0, _⟩ => r10 W X Y Z
  | ⟨1, _⟩, ⟨1, _⟩ => r11 W X Y Z
  | ⟨1, _⟩, ⟨2, _⟩ => r12 W X Y Z
  | ⟨2, _⟩, ⟨0, _⟩ => r20 W X Y Z
  | ⟨2, _⟩, ⟨1, _⟩ => r21 W X Y Z
  | ⟨2, _⟩, ⟨2, _⟩ => r22 W X Y Z

/-! The entries of rot at numerals, for rewriting after a case split on the two indices. -/
theorem rot_0_0 (W X Y Z : EReal) : rot W X Y Z 0 0 = r00 W X Y Z := rfl
theorem rot_0_1 (W X Y Z : EReal) : rot W X Y Z 0 1 = r01 W X Y Z := rfl
theorem rot_0_2 (W X Y Z : EReal) : rot W X Y Z 0 2 = r02 W X Y Z := rfl
theorem rot_1_0 (W X Y Z : EReal) : rot W X Y Z 1 0 = r10 W X Y Z := rfl
theorem rot_1_1 (W X Y Z : EReal) : rot W X Y Z 1 1 = r11 W X Y Z := rfl
theorem rot_1_2 (W X Y Z : EReal) : rot W X Y Z 1 2 = r12 W X Y Z := rfl
theorem rot_2_0 (W X Y Z : EReal) : rot W X Y Z 2 0 = r20 W X Y Z := rfl
theorem rot_2_1 (W X Y Z : EReal) : rot W X Y Z 2 1 = r21 W X Y Z := rfl
theorem rot_2_2 (W X Y Z : EReal) : rot W X Y Z 2 2 = r22 W X Y Z := rfl

/-- The rotation matrix of the normalised quaternion. -/
def rotN (w x y z : EReal) (i k : Fin 3) : EReal :=
  rot (unit w x y z w) (unit w x y z x) (unit w x y z y) (unit w x y z z) i k

/-- Absolute value plus the small constant. -/
def sc (v : EReal) : EReal := max v (-v) + Ideal.ofBits .f32 0x322BCC77#32

/-- The rotation matrix with column j scaled by sc of the j-th scale. -/
def rs (w x y z a b c : EReal) (i j : Fin 3) : EReal := rotN w x y z i j * sc (![a, b, c] j)

/-- The reference's result at (n, i, k) from row n of its two arguments: (RS RS^T) i k, the sum kept as a sum over Fin 3. -/
def refOut (w x y z a b c : EReal) (i k : Fin 3) : EReal :=
  ∑ j : Fin 3, rs w x y z a b c i j * rs w x y z a b c k j

/-- The same with the sum written out, in index order. -/
theorem refOut_expand (w x y z a b c : EReal) (i k : Fin 3) :
    refOut w x y z a b c i k =
      rs w x y z a b c i 0 * rs w x y z a b c k 0 + rs w x y z a b c i 1 * rs w x y z a b c k 1
        + rs w x y z a b c i 2 * rs w x y z a b c k 2 := by
  unfold refOut; exact Fin.sum_univ_three _

/-! ## The reference's stages at an index -/

variable (q : (⟨S4000000x4, .f32⟩ : BufTy).Contents (Elt Ideal)) (s : (⟨S4000000x3, .f32⟩ : BufTy).Contents (Elt Ideal))

/-- The norm stage at row n (read at any column of the broadcast). -/
theorem v1_at (n : Fin 4000000) (c : Fin 4) :
    val_main_v1 (F := Ideal) q (ix2 n c) = nrm (q (ix2 n 0)) (q (ix2 n 1)) (q (ix2 n 2)) (q (ix2 n 3)) := by
  have e1 : idx_main_v1 (ix2 n c) = ix2 n (0 : Fin 1) :=
    funext fun a => Fin.ext (by match a with | ⟨0, _⟩ => rfl | ⟨1, _⟩ => rfl)
  have e2 : idx_main_call0_v2 (ix2 n (0 : Fin 1)) = ix1 n :=
    funext fun a => Fin.ext (by match a with | ⟨0, _⟩ => rfl)
  have e3 : ∀ k : Fin 4, idx_main_call0_v1 (ix1 n) k = ix2 n k := fun k =>
    funext fun a => Fin.ext (by match a with | ⟨0, _⟩ => rfl | ⟨1, _⟩ => rfl)
  rw [val_main_v1_apply, e1, val_main_v0_apply, val_main_call0_v2_apply, e2, val_main_call0_v1_apply,
    val_main_call0_cst_apply, Fin.sum_univ_four]
  simp only [e3, val_main_call0_v0_apply, Ideal.mulf_def, Ideal.ofBits_def, Ideal.hostUnary_sqrt_def]
  rfl

/-- The normalised quaternion at (n, c). -/
theorem v2_at (n : Fin 4000000) (c : Fin 4) :
    val_main_v2 (F := Ideal) q (ix2 n c)
      = unit (q (ix2 n 0)) (q (ix2 n 1)) (q (ix2 n 2)) (q (ix2 n 3)) (q (ix2 n c)) := by
  rw [val_main_v2_apply, v1_at, Ideal.hostDivf_def]
  rfl

/-- The four components of the normalised quaternion as 1-D arrays (a column sliced out, then the unit axis dropped). -/
theorem v4_at (n : Fin 4000000) :
    val_main_v4 (F := Ideal) q (ix1 n)
      = unit (q (ix2 n 0)) (q (ix2 n 1)) (q (ix2 n 2)) (q (ix2 n 3)) (q (ix2 n 0)) := by
  have e1 : idx_main_v4 (ix1 n) = ix2 n (0 : Fin 1) :=
    funext fun a => Fin.ext (by match a with | ⟨0, _⟩ => exact Nat.div_one _ | ⟨1, _⟩ => rfl)
  have e2 : idx_main_v3 (ix2 n (0 : Fin 1)) = ix2 n (0 : Fin 4) :=
    funext fun a => Fin.ext (by match a with | ⟨0, _⟩ => rfl | ⟨1, _⟩ => rfl)
  rw [val_main_v4_apply, e1, val_main_v3_apply, e2, v2_at]

theorem v6_at (n : Fin 4000000) :
    val_main_v6 (F := Ideal) q (ix1 n)
      = unit (q (ix2 n 0)) (q (ix2 n 1)) (q (ix2 n 2)) (q (ix2 n 3)) (q (ix2 n 1)) := by
  have e1 : idx_main_v6 (ix1 n) = ix2 n (0 : Fin 1) :=
    funext fun a => Fin.ext (by match a with | ⟨0, _⟩ => exact Nat.div_one _ | ⟨1, _⟩ => rfl)
  have e2 : idx_main_v5 (ix2 n (0 : Fin 1)) = ix2 n (1 : Fin 4) :=
    funext fun a => Fin.ext (by match a with | ⟨0, _⟩ => rfl | ⟨1, _⟩ => rfl)
  rw [val_main_v6_apply, e1, val_main_v5_apply, e2, v2_at]

theorem v8_at (n : Fin 4000000) :
    val_main_v8 (F := Ideal) q (ix1 n)
      = unit (q (ix2 n 0)) (q (ix2 n 1)) (q (ix2 n 2)) (q (ix2 n 3)) (q (ix2 n 2)) := by
  have e1 : idx_main_v8 (ix1 n) = ix2 n (0 : Fin 1) :=
    funext fun a => Fin.ext (by match a with | ⟨0, _⟩ => exact Nat.div_one _ | ⟨1, _⟩ => rfl)
  have e2 : idx_main_v7 (ix2 n (0 : Fin 1)) = ix2 n (2 : Fin 4) :=
    funext fun a => Fin.ext (by match a with | ⟨0, _⟩ => rfl | ⟨1, _⟩ => rfl)
  rw [val_main_v8_apply, e1, val_main_v7_apply, e2, v2_at]

theorem v10_at (n : Fin 4000000) :
    val_main_v10 (F := Ideal) q (ix1 n)
      = unit (q (ix2 n 0)) (q (ix2 n 1)) (q (ix2 n 2)) (q (ix2 n 3)) (q (ix2 n 3)) := by
  have e1 : idx_main_v10 (ix1 n) = ix2 n (0 : Fin 1) :=
    funext fun a => Fin.ext (by match a with | ⟨0, _⟩ => exact Nat.div_one _ | ⟨1, _⟩ => rfl)
  have e2 : idx_main_v9 (ix2 n (0 : Fin 1)) = ix2 n (3 : Fin 4) :=
    funext fun a => Fin.ext (by match a with | ⟨0, _⟩ => rfl | ⟨1, _⟩ => rfl)
  rw [val_main_v10_apply, e1, val_main_v9_apply, e2, v2_at]

/-! The nine entries of the rotation matrix as 1-D arrays, at row n: each is a few elementwise stages over the four
    components and broadcast constants. -/

theorem v17_at (n : Fin 4000000) :
    val_main_v17 (F := Ideal) q (ix1 n)
      = r00 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v17_apply, val_main_v16_apply, val_main_cst_0_apply, val_main_v15_apply, val_main_v14_apply, val_main_cst_apply, val_main_v13_apply, val_main_v11_apply, val_main_v12_apply,
    v8_at, v10_at]
  rfl

theorem v22_at (n : Fin 4000000) :
    val_main_v22 (F := Ideal) q (ix1 n)
      = r01 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v22_apply, val_main_v21_apply, val_main_cst_1_apply, val_main_v20_apply, val_main_v18_apply, val_main_v19_apply,
    v6_at, v8_at, v4_at, v10_at]
  rfl

theorem v27_at (n : Fin 4000000) :
    val_main_v27 (F := Ideal) q (ix1 n)
      = r02 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v27_apply, val_main_v26_apply, val_main_cst_2_apply, val_main_v25_apply, val_main_v23_apply, val_main_v24_apply,
    v6_at, v10_at, v4_at, v8_at]
  rfl

theorem v32_at (n : Fin 4000000) :
    val_main_v32 (F := Ideal) q (ix1 n)
      = r10 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v32_apply, val_main_v31_apply, val_main_cst_3_apply, val_main_v30_apply, val_main_v28_apply, val_main_v29_apply,
    v6_at, v8_at, v4_at, v10_at]
  rfl

theorem v39_at (n : Fin 4000000) :
    val_main_v39 (F := Ideal) q (ix1 n)
      = r11 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v39_apply, val_main_v38_apply, val_main_cst_5_apply, val_main_v37_apply, val_main_v36_apply, val_main_cst_4_apply, val_main_v35_apply, val_main_v33_apply, val_main_v34_apply,
    v6_at, v10_at]
  rfl

theorem v44_at (n : Fin 4000000) :
    val_main_v44 (F := Ideal) q (ix1 n)
      = r12 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v44_apply, val_main_v43_apply, val_main_cst_6_apply, val_main_v42_apply, val_main_v40_apply, val_main_v41_apply,
    v8_at, v10_at, v4_at, v6_at]
  rfl

theorem v49_at (n : Fin 4000000) :
    val_main_v49 (F := Ideal) q (ix1 n)
      = r20 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v49_apply, val_main_v48_apply, val_main_cst_7_apply, val_main_v47_apply, val_main_v45_apply, val_main_v46_apply,
    v6_at, v10_at, v4_at, v8_at]
  rfl

theorem v54_at (n : Fin 4000000) :
    val_main_v54 (F := Ideal) q (ix1 n)
      = r21 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v54_apply, val_main_v53_apply, val_main_cst_8_apply, val_main_v52_apply, val_main_v50_apply, val_main_v51_apply,
    v8_at, v10_at, v4_at, v6_at]
  rfl

theorem v61_at (n : Fin 4000000) :
    val_main_v61 (F := Ideal) q (ix1 n)
      = r22 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  rw [val_main_v61_apply, val_main_v60_apply, val_main_cst_10_apply, val_main_v59_apply, val_main_v58_apply, val_main_cst_9_apply, val_main_v57_apply, val_main_v55_apply, val_main_v56_apply,
    v6_at, v8_at]
  rfl

/-! The nine entries as columns, joined along the second axis, and the result reshaped to 3 x 3. -/

/-- The nine columns, in the order they are joined. -/
def cols : Fin 9 → (S4000000x1.Idx → EReal)
  | ⟨0, _⟩ => val_main_v62 (F := Ideal) q
  | ⟨1, _⟩ => val_main_v63 (F := Ideal) q
  | ⟨2, _⟩ => val_main_v64 (F := Ideal) q
  | ⟨3, _⟩ => val_main_v65 (F := Ideal) q
  | ⟨4, _⟩ => val_main_v66 (F := Ideal) q
  | ⟨5, _⟩ => val_main_v67 (F := Ideal) q
  | ⟨6, _⟩ => val_main_v68 (F := Ideal) q
  | ⟨7, _⟩ => val_main_v69 (F := Ideal) q
  | ⟨8, _⟩ => val_main_v70 (F := Ideal) q

/-- The joined array at (n, p) is column p at row n. -/
theorem v71_at (n : Fin 4000000) (p : Fin 9) :
    val_main_v71 (F := Ideal) q (ix2 n p) = cols q p (ix2 n (0 : Fin 1)) := by
  unfold val_main_v71
  exact concatenate_ofFn_unit_apply (t := S4000000x9) (s₁ := S4000000x1) (1 : Fin 2) (cols q) _ rfl rfl (ix2 n p) p rfl
    (ix2 n (0 : Fin 1)) (fun b => match b with | ⟨0, _⟩ => fun _ => rfl | ⟨1, _⟩ => fun h => absurd rfl h)

/-- The reshaped array at (n, i, k) is the joined array at (n, 3 * i + k). -/
theorem v72_at (n : Fin 4000000) (i k : Fin 3) :
    val_main_v72 (F := Ideal) q (ix3 n i k)
      = cols q ⟨3 * i.val + k.val, by have := i.isLt; have := k.isLt; omega⟩ (ix2 n (0 : Fin 1)) := by
  have e : idx_main_v72 (ix3 n i k)
      = ix2 n (⟨3 * i.val + k.val, by have := i.isLt; have := k.isLt; omega⟩ : Fin 9) :=
    funext fun a => Fin.ext (by
      have hi := i.isLt
      have hk := k.isLt
      match a with
      | ⟨0, _⟩ => show ((n.val * 3 + i.val) * 3 + k.val) / 9 = n.val; omega
      | ⟨1, _⟩ => show ((n.val * 3 + i.val) * 3 + k.val) % 9 = 3 * i.val + k.val; omega)
  rw [val_main_v72_apply, e, v71_at]

/-! Each column at row n is its entry of the rotation matrix of the normalised quaternion. -/

theorem v62_at (n : Fin 4000000) :
    val_main_v62 (F := Ideal) q (ix2 n (0 : Fin 1))
      = r00 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v62 (ix2 n (0 : Fin 1)) = ix1 n := funext fun a => Fin.ext (by match a with | ⟨0, _⟩ => rfl)
  rw [val_main_v62_apply, e, v17_at]

theorem v63_at (n : Fin 4000000) :
    val_main_v63 (F := Ideal) q (ix2 n (0 : Fin 1))
      = r01 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v63 (ix2 n (0 : Fin 1)) = ix1 n := funext fun a => Fin.ext (by match a with | ⟨0, _⟩ => rfl)
  rw [val_main_v63_apply, e, v22_at]

theorem v64_at (n : Fin 4000000) :
    val_main_v64 (F := Ideal) q (ix2 n (0 : Fin 1))
      = r02 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v64 (ix2 n (0 : Fin 1)) = ix1 n := funext fun a => Fin.ext (by match a with | ⟨0, _⟩ => rfl)
  rw [val_main_v64_apply, e, v27_at]

theorem v65_at (n : Fin 4000000) :
    val_main_v65 (F := Ideal) q (ix2 n (0 : Fin 1))
      = r10 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v65 (ix2 n (0 : Fin 1)) = ix1 n := funext fun a => Fin.ext (by match a with | ⟨0, _⟩ => rfl)
  rw [val_main_v65_apply, e, v32_at]

theorem v66_at (n : Fin 4000000) :
    val_main_v66 (F := Ideal) q (ix2 n (0 : Fin 1))
      = r11 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v66 (ix2 n (0 : Fin 1)) = ix1 n := funext fun a => Fin.ext (by match a with | ⟨0, _⟩ => rfl)
  rw [val_main_v66_apply, e, v39_at]

theorem v67_at (n : Fin 4000000) :
    val_main_v67 (F := Ideal) q (ix2 n (0 : Fin 1))
      = r12 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v67 (ix2 n (0 : Fin 1)) = ix1 n := funext fun a => Fin.ext (by match a with | ⟨0, _⟩ => rfl)
  rw [val_main_v67_apply, e, v44_at]

theorem v68_at (n : Fin 4000000) :
    val_main_v68 (F := Ideal) q (ix2 n (0 : Fin 1))
      = r20 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v68 (ix2 n (0 : Fin 1)) = ix1 n := funext fun a => Fin.ext (by match a with | ⟨0, _⟩ => rfl)
  rw [val_main_v68_apply, e, v49_at]

theorem v69_at (n : Fin 4000000) :
    val_main_v69 (F := Ideal) q (ix2 n (0 : Fin 1))
      = r21 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v69 (ix2 n (0 : Fin 1)) = ix1 n := funext fun a => Fin.ext (by match a with | ⟨0, _⟩ => rfl)
  rw [val_main_v69_apply, e, v54_at]

theorem v70_at (n : Fin 4000000) :
    val_main_v70 (F := Ideal) q (ix2 n (0 : Fin 1))
      = r22 (unit (q (ix2 n 0)) (q (ix2 n 1)) (q (ix2 n 2)) (q (ix2 n 3)) (q (ix2 n 0)))
          (unit (q (ix2 n 0)) (q (ix2 n 1)) (q (ix2 n 2)) (q (ix2 n 3)) (q (ix2 n 1)))
          (unit (q (ix2 n 0)) (q (ix2 n 1)) (q (ix2 n 2)) (q (ix2 n 3)) (q (ix2 n 2)))
          (unit (q (ix2 n 0)) (q (ix2 n 1)) (q (ix2 n 2)) (q (ix2 n 3)) (q (ix2 n 3))) := by
  have e : idx_main_v70 (ix2 n (0 : Fin 1)) = ix1 n := funext fun a => Fin.ext (by match a with | ⟨0, _⟩ => rfl)
  rw [val_main_v70_apply, e, v61_at]

/-- The rotation stage at (n, i, k): column 3 * i + k at row n. -/
theorem v72_rot (n : Fin 4000000) : ∀ i k : Fin 3,
    val_main_v72 (F := Ideal) q (ix3 n i k)
      = rotN (q (ix2 n 0)) (q (ix2 n 1)) (q (ix2 n 2)) (q (ix2 n 3)) i k
  | ⟨0, _⟩, ⟨0, _⟩ => (v72_at q n _ _).trans (v62_at q n)
  | ⟨0, _⟩, ⟨1, _⟩ => (v72_at q n _ _).trans (v63_at q n)
  | ⟨0, _⟩, ⟨2, _⟩ => (v72_at q n _ _).trans (v64_at q n)
  | ⟨1, _⟩, ⟨0, _⟩ => (v72_at q n _ _).trans (v65_at q n)
  | ⟨1, _⟩, ⟨1, _⟩ => (v72_at q n _ _).trans (v66_at q n)
  | ⟨1, _⟩, ⟨2, _⟩ => (v72_at q n _ _).trans (v67_at q n)
  | ⟨2, _⟩, ⟨0, _⟩ => (v72_at q n _ _).trans (v68_at q n)
  | ⟨2, _⟩, ⟨1, _⟩ => (v72_at q n _ _).trans (v69_at q n)
  | ⟨2, _⟩, ⟨2, _⟩ => (v72_at q n _ _).trans (v70_at q n)

/-! The scale side: absolute value plus the constant, broadcast over the row axis of the 3 x 3 block. -/

theorem v77_at (n : Fin 4000000) (i j : Fin 3) :
    val_main_v77 (F := Ideal) s (ix3 n i j) = sc (s (ix2 n j)) := by
  have e1 : idx_main_v77 (ix3 n i j) = ix3 n (0 : Fin 1) j :=
    funext fun a => Fin.ext (by match a with | ⟨0, _⟩ => rfl | ⟨1, _⟩ => rfl | ⟨2, _⟩ => rfl)
  have e2 : idx_main_v76 (ix3 n (0 : Fin 1) j) = ix2 n j :=
    funext fun a => Fin.ext (by match a with | ⟨0, _⟩ => rfl | ⟨1, _⟩ => rfl)
  rw [val_main_v77_apply, e1, val_main_v76_apply, e2, val_main_v75_apply, val_main_v73_apply, val_main_v74_apply,
    val_main_cst_11_apply]
  rfl

/-- A vector of three read at an index. -/
theorem vec3_apply (f : Fin 3 → EReal) : ∀ j : Fin 3, ![f 0, f 1, f 2] j = f j
  | ⟨0, _⟩ => rfl
  | ⟨1, _⟩ => rfl
  | ⟨2, _⟩ => rfl

/-- The scaled rotation at (n, i, j). -/
theorem v78_at (n : Fin 4000000) (i j : Fin 3) :
    val_main_v78 (F := Ideal) q s (ix3 n i j)
      = rs (q (ix2 n 0)) (q (ix2 n 1)) (q (ix2 n 2)) (q (ix2 n 3)) (s (ix2 n 0)) (s (ix2 n 1)) (s (ix2 n 2)) i j := by
  rw [val_main_v78_apply, v72_rot, v77_at, Ideal.mulf_def]
  unfold rs
  rw [vec3_apply (fun j => s (ix2 n j)) j]

/-- **The reference at an index.** Its result at (n, i, k) is refOut of row n of the quaternion array and row n of the
    scale array. -/
theorem ref_value (n : Fin 4000000) (i k : Fin 3) :
    val_main_v79 (F := Ideal) q s (ix3 n i k)
      = refOut (q (ix2 n 0)) (q (ix2 n 1)) (q (ix2 n 2)) (q (ix2 n 3)) (s (ix2 n 0)) (s (ix2 n 1)) (s (ix2 n 2)) i k := by
  have el : ∀ j : Fin 3, lidx_main_v79 (ix3 n i k) j = ix3 n i j := fun j =>
    funext fun a => Fin.ext (by match a with | ⟨0, _⟩ => rfl | ⟨1, _⟩ => rfl | ⟨2, _⟩ => rfl)
  have er : ∀ j : Fin 3, ridx_main_v79 (ix3 n i k) j = ix3 n k j := fun j =>
    funext fun a => Fin.ext (by match a with | ⟨0, _⟩ => rfl | ⟨1, _⟩ => rfl | ⟨2, _⟩ => rfl)
  rw [val_main_v79_apply]
  unfold refOut
  refine Finset.sum_congr rfl fun j _ => ?_
  rw [el, er, v78_at, v78_at]

end Cert.RefSide

end
-- ==== Proof.Bridge.lean ====
/-
  The two normalisations give one covariance. With the sum of the four squares positive, each component times the
  reciprocal square root of the sum is the component divided by the square root of the sum; the rotation entries,
  the scaling of the columns and the products of rows are then the same expressions on both sides, and an entry
  below the diagonal of the symmetric result is the entry above it with the factors of each product exchanged.
-/
import proofs.«114946_j41480794145202_2_alg».proof.Proof.Spec
import proofs.«114946_j41480794145202_2_alg».proof.Proof.RefValue

noncomputable section

namespace Cert.Cov

open Idealize.ShloMosaic

/-- The reference's squared norm is the sum of the four squares: its initial value is zero. -/
theorem nrm2_eq (w x y z : EReal) : Cert.RefSide.nrm2 w x y z = sumsq w x y z := by
  unfold Cert.RefSide.nrm2 sumsq
  rw [Ideal.ofBits_zero_f32, zero_add]

/-- A component times the reciprocal square root of a positive sum of squares is the component over the norm. -/
theorem unit_eq (w x y z v : EReal) (hpos : 0 < sumsq w x y z) :
    v * Ideal.rsqrt (sumsq w x y z) = Cert.RefSide.unit w x y z v := by
  unfold Cert.RefSide.unit Cert.RefSide.nrm
  rw [nrm2_eq]
  exact mul_rsqrt_eq_div_sqrt v _ hpos

/-- The scaled rotation of the normalised quaternion, entry by entry, is the same on both sides. -/
theorem rs_eq (w x y z a b c : EReal) (hpos : 0 < sumsq w x y z) :
    rs (w * Ideal.rsqrt (sumsq w x y z)) (x * Ideal.rsqrt (sumsq w x y z)) (y * Ideal.rsqrt (sumsq w x y z))
        (z * Ideal.rsqrt (sumsq w x y z)) a b c
      = Cert.RefSide.rs w x y z a b c := by
  funext i j
  unfold rs Cert.RefSide.rs Cert.RefSide.rotN
  rw [unit_eq w x y z w hpos, unit_eq w x y z x hpos, unit_eq w x y z y hpos, unit_eq w x y z z hpos]
  fin_cases i <;> fin_cases j <;> rfl

/-- The reference's entry (i, k) is the product of rows i and k of the scaled rotation. -/
theorem refOut_dot3 (w x y z a b c : EReal) (i k : Fin 3) :
    Cert.RefSide.refOut w x y z a b c i k
      = dot3 (Cert.RefSide.rs w x y z a b c i) (Cert.RefSide.rs w x y z a b c k) := by
  rw [Cert.RefSide.refOut_expand]; rfl

/-- Plane 3i + k of the kernel's result is the reference's entry (i, k). -/
theorem kPlane_eq_refOut (w x y z a b c : EReal) (hpos : 0 < sumsq w x y z) (i k : Fin 3)
    (h : 3 * i.val + k.val < 9) :
    kPlane w x y z a b c ⟨3 * i.val + k.val, h⟩ = Cert.RefSide.refOut w x y z a b c i k := by
  rw [refOut_dot3]
  unfold kPlane
  rw [rs_eq w x y z a b c hpos]
  fin_cases i <;> fin_cases k
  · rfl
  · rfl
  · rfl
  · exact dot3_comm _ _
  · rfl
  · rfl
  · exact dot3_comm _ _
  · exact dot3_comm _ _
  · rfl

end Cert.Cov

end
-- ==== Proof.PreDecode.lean ====
/-
  The precondition decoded: from `finite_inputs … = true` to the positivity of each quaternion's sum of squares.
-/
import proofs.«114946_j41480794145202_2_alg».proof.Pre_finite_inputs
import Idealize.ShloMosaic.Lib.ReduceAll
import Idealize.ShloMosaic.Lib.Affine
import Idealize.ShloMosaic.Lib.ValueIdx
import Idealize.ShloMosaic.Lib.IdealHost
import Idealize.ShloMosaic.PureOps.Ideal.Laws

noncomputable section

namespace Cert.HostSide

open Idealize.ShloMosaic Idealize.ShloMosaic.ValueIdx
open Cert.Pre_finite_inputs

instance : Subsingleton Cert.Pre_finite_inputs.S_.Idx := ⟨fun a b => funext fun d => d.elim0⟩

/-- At the extended reals the comparison `>` answers `true` exactly on the order's strict inequality. -/
theorem lt_of_cmp_ogt {x y : EReal} (h : Ideal.cmp .ogt x y = 1#1) : y < x := by
  unfold Ideal.cmp at h
  by_contra hn
  simp [hn] at h

theorem cmpf_ideal_f32 (p : CmpFPredicate) (x y : EReal) : FloatOps.cmpf (F := Ideal) (φ := .f32) p x y = Ideal.cmp p x y := rfl

/-- The precondition's last conjunct, at a row: the sum of the four squares of quaternion `n` is positive (the
    host's row sum is the zero it starts from plus the sum over the four columns; the comparison with the zero it is
    compared to is the strict order). -/
theorem sumsq_pos [Cert.Pre_finite_inputs.Facts] (q : Cert.Pre_finite_inputs.S4000000x4.Idx → EReal)
    (s : Cert.Pre_finite_inputs.S4000000x3.Idx → EReal)
    (h : Cert.Pre_finite_inputs.fn (F := Ideal) q s = fun _ => 1#1) (n : Fin 4000000) :
    0 < ∑ k : Fin 4, q (ix2 n k) * q (ix2 n k) := by
  have h0 := congrFun h ix0
  dsimp only [Cert.Pre_finite_inputs.fn] at h0
  have h1 := (IntOp.andi_eq_one.mp h0).2
  have h2 := Host.reduce_andi_all _ _ _ _ _ h1 (ix1 n)
  rw [cmpf_apply, cmpf_ideal_f32] at h2
  have h3 := lt_of_cmp_ogt h2
  rw [broadcastInDim_scalar_apply, hostReduceAdd_apply] at h3
  rw [Ideal.hostReduceAdd_single Facts.reducesTo_S4000000x4_S4000000_d1 (by decide)] at h3
  rw [constant_apply, constant_apply, Ideal.ofBits_zero_f32, zero_add] at h3
  refine h3.trans_eq (Finset.sum_congr rfl fun k _ => ?_)
  rw [mulf_apply]
  have e : (Shape.Reduces.lift (by decide : S4000000x4.Reduces [1] S4000000) (ix1 n) k : S4000000x4.Idx) = ix2 n k :=
    funext fun a => Fin.ext (by match a with | ⟨0, _⟩ => rfl | ⟨1, _⟩ => rfl)
  rw [e]
  rfl

/-- The same with the zero the host's row sum starts from left in front, as the reference's row sum reads. -/
theorem sumsq_pos' [Cert.Pre_finite_inputs.Facts] (q : Cert.Pre_finite_inputs.S4000000x4.Idx → EReal)
    (s : Cert.Pre_finite_inputs.S4000000x3.Idx → EReal)
    (h : Cert.Pre_finite_inputs.fn (F := Ideal) q s = fun _ => 1#1) (n : Fin 4000000) :
    0 < Ideal.ofBits .f32 0x00000000#32 + ∑ k : Fin 4, q (ix2 n k) * q (ix2 n k) := by
  rw [Ideal.ofBits_zero_f32, zero_add]
  exact sumsq_pos q s h n

/-- At the extended reals the comparison `<` answers `true` exactly on the order's strict inequality. -/
theorem lt_of_cmp_olt {x y : EReal} (h : Ideal.cmp .olt x y = 1#1) : x < y := by
  unfold Ideal.cmp at h
  by_contra hn
  simp [hn] at h

theorem hostAbsf_ideal_f32 (x : EReal) : FloatOps.hostAbsf (F := Ideal) (φ := .f32) x = max x (-x) := rfl

/-- `|x| < +∞` says that `x` is neither infinity. -/
theorem finite_of_abs_lt_inf (x : EReal)
    (h : FloatOps.cmpf (F := Ideal) (φ := .f32) .olt (FloatOps.hostAbsf (F := Ideal) (φ := .f32) x) (Ideal.ofBits .f32 0x7F800000#32) = 1#1) :
    x ≠ ⊤ ∧ x ≠ ⊥ := by
  have htop : Ideal.ofBits .f32 0x7F800000#32 = ⊤ := by simp [Ideal.ofBits, Ideal.ieee]
  rw [cmpf_ideal_f32, hostAbsf_ideal_f32, htop] at h
  have h' := max_lt_iff.mp (lt_of_cmp_olt h)
  refine ⟨ne_of_lt h'.1, fun hb => ?_⟩
  rw [hb] at h'
  exact absurd h'.2 (by simp)

/-- The precondition's first conjunct: every quaternion component is a real. -/
theorem q_finite [Cert.Pre_finite_inputs.Facts] (q : Cert.Pre_finite_inputs.S4000000x4.Idx → EReal)
    (s : Cert.Pre_finite_inputs.S4000000x3.Idx → EReal)
    (h : Cert.Pre_finite_inputs.fn (F := Ideal) q s = fun _ => 1#1) (i : Cert.Pre_finite_inputs.S4000000x4.Idx) :
    q i ≠ ⊤ ∧ q i ≠ ⊥ := by
  have h0 := congrFun h ix0
  dsimp only [Cert.Pre_finite_inputs.fn] at h0
  have h1 := (IntOp.andi_eq_one.mp (IntOp.andi_eq_one.mp h0).1).1
  have h2 := Host.reduce_andi_all _ _ _ _ _ h1 i
  rw [cmpf_apply, broadcastInDim_scalar_apply, constant_apply] at h2
  exact finite_of_abs_lt_inf (q i) h2

/-- The precondition's second conjunct: every scale component is a real. -/
theorem s_finite [Cert.Pre_finite_inputs.Facts] (q : Cert.Pre_finite_inputs.S4000000x4.Idx → EReal)
    (s : Cert.Pre_finite_inputs.S4000000x3.Idx → EReal)
    (h : Cert.Pre_finite_inputs.fn (F := Ideal) q s = fun _ => 1#1) (i : Cert.Pre_finite_inputs.S4000000x3.Idx) :
    s i ≠ ⊤ ∧ s i ≠ ⊥ := by
  have h0 := congrFun h ix0
  dsimp only [Cert.Pre_finite_inputs.fn] at h0
  have h1 := (IntOp.andi_eq_one.mp (IntOp.andi_eq_one.mp h0).1).2
  have h2 := Host.reduce_andi_all _ _ _ _ _ h1 i
  rw [cmpf_apply, broadcastInDim_scalar_apply, constant_apply] at h2
  exact finite_of_abs_lt_inf (s i) h2

end Cert.HostSide

end
-- ==== Proof.lean ====
/-
  The covariance of four million Gaussians, computed two ways, is one function of the arguments.

  Both programs take a quaternion array q : [4000000, 4] and a scale array s : [4000000, 3] and return, for every
  row n, the 3 × 3 matrix (R S)(R S)ᵀ, where R is the rotation matrix of the normalised quaternion of row n and S
  is the diagonal matrix of |s| + ε of row n. The reference divides each quaternion component by the square root of
  the row's sum of squares. The kernel lays the rows out as planes of 32000 × 128 (padding to 4096000 rows with
  unit quaternions and zero scales, which are sliced off again afterwards), multiplies each component by the
  reciprocal square root of the row's sum of squares, and stores the six entries of the upper triangle, three of
  them twice, as nine planes.

  On the extended reals the two normalisations agree exactly when the sum of squares is positive (for a positive
  real both are the product with (√n)⁻¹; at +∞ both give 0); at an all-zero row the quotient 0 / 0 and the product
  0 · ∞ differ, which is why the precondition asks every row's sum of squares to be positive. After the
  normalisation the two programs evaluate the same expressions, up to the order of the factors in the entries
  below the diagonal.

  The frames of the two kernel programs are the generated ones; the reference's frame is its generated run with the
  result dropped; the idealisation rewrote nothing.
-/
import proofs.«114946_j41480794145202_2_alg».proof.Defs
import proofs.«114946_j41480794145202_2_alg».proof.Proof.Gen.Kernel
import proofs.«114946_j41480794145202_2_alg».proof.Proof.Gen.Kernel.Skeleton
import proofs.«114946_j41480794145202_2_alg».proof.Proof.Gen.Kernel.Launch
import proofs.«114946_j41480794145202_2_alg».proof.Proof.Gen.Kernel.Points
import proofs.«114946_j41480794145202_2_alg».proof.Proof.Gen.Kernel.Frame
import proofs.«114946_j41480794145202_2_alg».proof.Proof.Gen.KernelIdeal
import proofs.«114946_j41480794145202_2_alg».proof.Proof.Gen.KernelIdeal.Skeleton
import proofs.«114946_j41480794145202_2_alg».proof.Proof.Gen.KernelIdeal.Launch
import proofs.«114946_j41480794145202_2_alg».proof.Proof.Gen.KernelIdeal.Points
import proofs.«114946_j41480794145202_2_alg».proof.Proof.Gen.KernelIdeal.Frame
import proofs.«114946_j41480794145202_2_alg».proof.Proof.Gen.ReferenceIdeal
import proofs.«114946_j41480794145202_2_alg».proof.Proof.Gen.Pre_finite_inputs
import proofs.«114946_j41480794145202_2_alg».proof.Proof.Gen.ReferenceIdeal.Run
import proofs.«114946_j41480794145202_2_alg».proof.Proof.Gen.ReferenceIdeal.Read
import proofs.«114946_j41480794145202_2_alg».proof.Proof.KernelValue
import proofs.«114946_j41480794145202_2_alg».proof.Proof.RefValue
import proofs.«114946_j41480794145202_2_alg».proof.Proof.Bridge
import proofs.«114946_j41480794145202_2_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section

open Cert.KernelIdeal Cert.KernelIdeal.Gen

/-- Under the precondition every row's sum of squares is positive. -/
theorem sumsq_pos (m : (ℓ : Loc nD τ sig) → Buf (Elt Ideal) ℓ) (hpre : Cert.Pre_KernelIdeal m) (c : Dev nD) (n : Fin 4000000) :
    0 < Cert.Cov.sumsq ((m ((c : Thread nD τ).loc main_arg0) : S4000000x4.Idx → EReal) (ix2 n 0))
      ((m ((c : Thread nD τ).loc main_arg0) : S4000000x4.Idx → EReal) (ix2 n 1))
      ((m ((c : Thread nD τ).loc main_arg0) : S4000000x4.Idx → EReal) (ix2 n 2))
      ((m ((c : Thread nD τ).loc main_arg0) : S4000000x4.Idx → EReal) (ix2 n 3)) := by
  have h := Cert.HostSide.sumsq_pos (m ((c : Thread nD τ).loc main_arg0)) (m ((c : Thread nD τ).loc main_arg1)) (hpre c) n
  rw [Fin.sum_univ_four] at h
  exact h

/-- The kernel's run: the result buffer holds what the operations after the region make of the region's output
    array, and the arguments are unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v15) = Pipeline.afterTail₀ cfgs (dats (F := Ideal) m) 0 (V0 m) [hostOps1] c main_v15
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c =>
      ⟨(h c).2 main_v15 (Pipeline.mem_restRefs_of main_v15 (by decide) (by decide)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end

/-- From memories agreeing on the arguments, both programs end with the same result: entry (n, i, k) is plane
    3i + k of the kernel's covariance of row n, which is the reference's entry (i, k) of row n. -/
theorem algebraic : Cert.algebraic_KernelIdeal_ReferenceIdeal := by
  intro m ρ m' ρ' hpre hagree
  refine ⟨fun c => Pipeline.afterTail₀ Cert.KernelIdeal.cfgs (Cert.KernelIdeal.Gen.dats (F := Ideal) m) 0
      (Cert.KernelIdeal.Gen.V0 m) [Cert.KernelIdeal.Gen.hostOps1] c Cert.KernelIdeal.main_v15, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v79_eq, (hagree c).1, (hagree c).2]
  funext idx
  obtain ⟨n, i, k, rfl⟩ : ∃ (n : Fin 4000000) (i k : Fin 3), idx = ix3 n i k := ⟨idx 0, idx 1, idx 2, eq_ix3 idx⟩
  rw [Cert.RefSide.ref_value]
  refine Eq.trans ?_ (Cert.KSide.result_apply m c n i k).symm
  exact (Cert.Cov.kPlane_eq_refOut _ _ _ _ _ _ _ (sumsq_pos m hpre c n) i k (by omega)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
